-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x256 .f32) (main_arg1 : FVec F S4096x4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x256 : Shape := ⟨2, ![4096, 256]⟩
abbrev S4096x4096 : Shape := ⟨2, ![4096, 4096]⟩
abbrev S512x4096 : Shape := ⟨2, ![512, 4096]⟩
abbrev S512x256 : Shape := ⟨2, ![512, 256]⟩
abbrev S4096x768 : Shape := ⟨2, ![4096, 768]⟩
abbrev S512x768 : Shape := ⟨2, ![512, 768]⟩

abbrev nBuf : Space → Nat
  | .hbm => 4
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x768, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S512x256, .f32⟩
  | .local _ .vmem, ⟨4, _⟩ => ⟨S512x256, .f32⟩
  | .local _ .vmem, ⟨5, _⟩ => ⟨S512x4096, .f32⟩
  | .local _ .vmem, ⟨6, _⟩ => ⟨S512x4096, .f32⟩
  | .local _ .vmem, ⟨7, _⟩ => ⟨S4096x256, .f32⟩
  | .local _ .vmem, ⟨8, _⟩ => ⟨S4096x256, .f32⟩
  | .local _ .vmem, ⟨9, _⟩ => ⟨S512x768, .f32⟩
  | .local _ .vmem, ⟨10, _⟩ => ⟨S512x768, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v0 : BitVec 32 := Scalar.muli arg0 c512_i32
  let v1 : Index := Scalar.indexCast v0
  let c0 : Index := 0#32
  ![v1.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  inb_S512x256_S512x256_0_0 : ∀ a, (![0, 0] : Fin 2 → Nat) a + S512x256.size a ≤ S512x256.size a
  h_S512x256 : 0 < S512x256.numel
  inb_S512x768_S512x256_0_0 : ∀ a, (![0, 0] : Fin 2 → Nat) a + S512x256.size a ≤ S512x768.size a
  shapeCasts_S512x256_S512x256 : S512x256.ShapeCasts S512x256
  inb_S512x768_S512x256_0_256 : ∀ a, (![0, 256] : Fin 2 → Nat) a + S512x256.size a ≤ S512x768.size a
  shapeCasts_S4096x256_S4096x256 : S4096x256.ShapeCasts S4096x256
  inb_S512x768_S512x256_0_512 : ∀ a, (![0, 512] : Fin 2 → Nat) a + S512x256.size a ≤ S512x768.size a
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hrank1 : 0 < grid1.rank
  k1_off1_inb : ∀ i : grid1.Coords, ∀ a, (k1_off1 i) a + S512x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .f32 = 32 ∨ (Rect.block (s := S4096x256) S4096x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x768.size a ≤ S4096x768.size a
  hwx1_3 : ∀ i : grid1.Coords, EltTy.bits .f32 = 32 ∨ (Rect.block (s := S4096x768) S512x768.size (cc1_transform_3 i) (hinb1_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S4096x768 : Shape := ⟨2, ![4096, 768]⟩
abbrev S256x256 : Shape := ⟨2, ![256, 256]⟩
abbrev S256x768 : Shape := ⟨2, ![256, 768]⟩

abbrev nBuf : Space → Nat
  | .hbm => 4
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x768, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x768, .f32⟩
  | .local _ .vmem, ⟨16, _⟩ => ⟨S256x768, .f32⟩
  | .local _ .vmem, ⟨17, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x768_S256x256_0_0 : ∀ a, (![0, 0] : Fin 2 → Nat) a + S256x256.size a ≤ S256x768.size a
  inb_S256x768_S256x256_0_256 : ∀ a, (![0, 256] : Fin 2 → Nat) a + S256x256.size a ≤ S256x768.size a
  inb_S256x768_S256x256_0_512 : ∀ a, (![0, 512] : Fin 2 → Nat) a + S256x256.size a ≤ S256x768.size a
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x4096.size a
  hwx0_0 : ∀ i : grid0.Coords, EltTy.bits .f32 = 32 ∨ (Rect.block (s := S4096x4096) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x256.size a
  hwx0_1 : ∀ i : grid0.Coords, EltTy.bits .f32 = 32 ∨ (Rect.block (s := S4096x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .f32 = 32 ∨ (Rect.block (s := S4096x4096) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S4096x256.size a
  hwx1_1 : ∀ i : grid1.Coords, EltTy.bits .f32 = 32 ∨ (Rect.block (s := S4096x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S4096x256.size a
  hwx1_2 : ∀ i : grid1.Coords, EltTy.bits .f32 = 32 ∨ (Rect.block (s := S4096x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x768.size a ≤ S4096x768.size a
  hwx1_4 : ∀ i : grid1.Coords, EltTy.bits .f32 = 32 ∨ (Rect.block (s := S4096x768) S256x768.size (cc1_transform_4 i) (hinb1_4 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v0) S256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S256x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== Proof.KerRun.lean ====
import proofs.«148489_g2000000462589658_pallasbulk_581_2_alg».proof.Proof.Gen.KernelIdeal.Frame

/-!
# The run, with the result array named

The generated frame of this program runs @main as two regions and concludes that the argument arrays end as launched.
Its last thread state holds more: every unscoped buffer of the TensorCore at the contents the second region leaves
(`Gen.W2`). The same launch, read at the result array as well, names what the result array ends holding.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates, and every final state has the
    result array at what the second region leaves in it and the argument arrays as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

end Cert.KernelIdeal.Hand

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibSlabProducts.lean ====
import proofs.«148489_g2000000462589658_pallasbulk_581_2_alg».proof.Proof.LibPlainMatmul
import Idealize.ShloMosaic.Lib.ValueLayout
import Idealize.ShloMosaic.Lib.Pipeline.Value

/-!
# Products with one slab of a stack, read at an index

For layers of the form `Σₛ hₛ · W[s]`, where `W` is an `[n, K, D]` stack of weight matrices:

* `dotGeneral_plain_apply` — the host's whole product `[M, K] · [K, N]` (no batch axis, contracting the left operand's
  axis 1 with the right operand's axis 0), over the extended reals, at `(p, q)`, is `Σₖ l[p, k] · r[k, q]`: the host's
  product and the matrix unit's product into a zero accumulator are the same sum over the contraction's index type,
  and the latter is the plain sum.
* `wslice_apply` — slice `s` of an `[n, K, D]` stack (a unit-stride slice with offsets `(s, 0, 0)`, then the leading
  unit axis dropped), at `(k, j)`, is the stack's `(s, k, j)`.
* `ld_slab` — the `[1, a, b]` piece at offsets `(s, 0, 0)` of an `[n, a, b]` block, loaded through its rectangle, holds
  at `(0, i, j)` the block's `(s, i, j)`.
-/

noncomputable section

open scoped BigOperators

namespace Idealize.ShloMosaic.SlabProducts

open Idealize.ShloMosaic Idealize.ShloMosaic.ValueIdx

/-- The host's whole product `[M, K] · [K, N]` at `(p, q)`, over the extended reals: the plain sum over the `K` shared
    coordinates, for any record of dimension numbers whose fields are those of a plain product, any precision and any
    schedule key. -/
theorem dotGeneral_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) :=
  (Ideal.dotGeneral_apply d prec sched l r (ix2 p q)).trans
    ((Ideal.matmul_constant_zero_apply d prec l r (ix2 p q)).symm.trans
      (PlainMatmul.matmul_plain_apply d hlc hrc hln hrn hlb hrb prec l r p q))

/-- Slice `s` of an `[n, K, D]` stack, as a `[K, D]` matrix, at `(k, j)`. -/
theorem wslice_apply {α : Type} {n K D : Nat} (W : (⟨3, ![n, K, D]⟩ : Shape).Idx → α) (s : Fin n)
    (hs : (⟨3, ![n, K, D]⟩ : Shape).Slices ![s.val, 0, 0] ⟨3, ![1, K, D]⟩)
    (hc : (⟨3, ![1, K, D]⟩ : Shape).ShapeCasts ⟨2, ![K, D]⟩) (k : Fin K) (j : Fin D) :
    shapeCast ⟨2, ![K, D]⟩ (extractStridedSlice ⟨3, ![1, K, D]⟩ ![s.val, 0, 0] W hs) hc (ix2 k j) = W (ix3 s k j) := by
  rw [shapeCast_1ab_ab_apply]
  refine extractStridedSlice_apply _ W hs _ (ix3 s k j) fun a => ?_
  match a with
  | ⟨0, _⟩ => show s.val = s.val + 0; omega
  | ⟨1, _⟩ => show k.val = 0 + k.val; omega
  | ⟨2, _⟩ => show j.val = 0 + j.val; omega

/-- Slab `s` of an `[n, a, b]` block, loaded as a `[1, a, b]` piece, holds at `(0, i, j)` the block's `(s, i, j)`. -/
theorem ld_slab {Val : EltTy → Type} {e : EltTy} {n a b : Nat} (X : (⟨3, ![n, a, b]⟩ : Shape).Idx → Val e) (s : Fin n)
    (inb : ∀ ax, (![s.val, 0, 0] : Fin 3 → Nat) ax + (![1, a, b] : Fin 3 → Nat) ax ≤ (![n, a, b] : Fin 3 → Nat) ax)
    (i : Fin a) (j : Fin b) :
    View.ld X (Rect.unit (s := ⟨3, ![n, a, b]⟩) ![s.val, 0, 0] ![1, a, b] inb) (ix3 (0 : Fin 1) i j) = X (ix3 s i j) := by
  refine congrArg X (funext fun ax => Fin.ext ?_)
  match ax with
  | ⟨0, _⟩ => show s.val + 1 * 0 = s.val; omega
  | ⟨1, _⟩ => show 0 + 1 * i.val = i.val; omega
  | ⟨2, _⟩ => show 0 + 1 * j.val = j.val; omega

end Idealize.ShloMosaic.SlabProducts

end
-- ==== Proof.LibMatProd.lean ====
import proofs.«148489_g2000000462589658_pallasbulk_581_2_alg».proof.Proof.LibSlabProducts

/-!
# The product of two matrices as one function of the index

`matProd x w` is the matrix product of `x : [M, K]` and `w : [K, N]` over the extended reals, as a function of the
index of `[M, N]`: at `(p, q)` it is `∑ k, x[p, k] · w[k, q]`.

Both ways a program computes a plain product — the host's whole `dot_general` (contracting the left operand's axis 1
with the right operand's axis 0, no batch axis) and the matrix unit's product into a zero accumulator — ARE this
function, for any record of dimension numbers with the fields of a plain product: `dotGeneral_eq_matProd`,
`matmul_eq_matProd`. A change of float format of an operand does not show: over the extended reals it is the identity.

The product of a block of rows with the right operand is that block of rows of the product: `matProd_rows`.
-/

noncomputable section

open scoped BigOperators

namespace Idealize.ShloMosaic.MatProd

open Idealize.ShloMosaic Idealize.ShloMosaic.ValueIdx

/-- The product of `x : [M, K]` and `w : [K, N]` over the extended reals. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- At `(p, q)` it is the sum over the shared coordinate. -/
theorem matProd_apply {M K N : Nat} (x : (⟨2, ![M, K]⟩ : Shape).Idx → EReal) (w : (⟨2, ![K, N]⟩ : Shape).Idx → EReal)
    (p : Fin M) (q : Fin N) : matProd x w (ix2 p q) = ∑ k : Fin K, x (ix2 p k) * w (ix2 k q) := rfl

/-- The host's whole product is `matProd`. -/
theorem dotGeneral_eq_matProd {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂) :
    FloatOps.dotGeneral d prec sched l r = matProd l r := by
  funext i
  obtain ⟨p, q, rfl⟩ : ∃ (p : Fin M) (q : Fin N), i = ix2 p q := ⟨i 0, i 1, eq_ix2 i⟩
  exact SlabProducts.dotGeneral_plain_apply d hlc hrc hln hrn hlb hrb prec sched l r p q

/-- The matrix unit's product into the zero accumulator is `matProd`. -/
theorem matmul_eq_matProd {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = matProd l r := by
  funext i
  obtain ⟨p, q, rfl⟩ : ∃ (p : Fin M) (q : Fin N), i = ix2 p q := ⟨i 0, i 1, eq_ix2 i⟩
  exact PlainMatmul.matmul_plain_apply d hlc hrc hln hrn hlb hrb prec l r p q

/-- Rows `b·R … b·R + R − 1` of the product are the product of those rows of the left operand with the right operand:
    if block `xb : [R, K]` holds row `b·R + p` of `x` at its row `p`, and `wb` holds `w`, then `matProd xb wb` at
    `(p, q)` is `matProd x w` at `(b·R + p, q)`. -/
theorem matProd_rows {M R K N : Nat} (x : (⟨2, ![M, K]⟩ : Shape).Idx → EReal) (xb : (⟨2, ![R, K]⟩ : Shape).Idx → EReal)
    (w wb : (⟨2, ![K, N]⟩ : Shape).Idx → EReal) (b : Nat)
    (hrows : ∀ (p : Fin R) (r : Fin M) (k : Fin K), r.val = b * R + p.val → xb (ix2 p k) = x (ix2 r k))
    (hw : ∀ (k : Fin K) (q : Fin N), wb (ix2 k q) = w (ix2 k q))
    (j : (⟨2, ![R, N]⟩ : Shape).Idx) (i : (⟨2, ![M, N]⟩ : Shape).Idx)
    (h0 : (i 0).val = b * R + (j 0).val) (h1 : (i 1).val = (j 1).val) :
    matProd xb wb j = matProd x w i := by
  obtain ⟨p, q, rfl⟩ : ∃ (p : Fin R) (q : Fin N), j = ix2 p q := ⟨j 0, j 1, eq_ix2 j⟩
  obtain ⟨r, q', rfl⟩ : ∃ (r : Fin M) (q' : Fin N), i = ix2 r q' := ⟨i 0, i 1, eq_ix2 i⟩
  have hq : q' = q := Fin.ext h1
  subst hq
  show ∑ k : Fin K, xb (ix2 p k) * wb (ix2 k q') = ∑ k : Fin K, x (ix2 r k) * w (ix2 k q')
  exact Finset.sum_congr rfl fun k _ => by rw [hrows p r k h0, hw k q']

end Idealize.ShloMosaic.MatProd

end
-- ==== Proof.LibPartialSums.lean ====
/-
  Partial sums of a finite sequence, tile by tile, in any commutative additive monoid (and the squared difference
  of two extended reals, the term summed here).  A finite sequence `a : Fin N → M` is continued by zeros to all
  naturals, so that its partial sums can be taken over `Finset.range`; the partial sum over the first `j + 1` tiles
  of width `w` is the partial sum over the first `j` tiles plus the sum over tile `j`, the partial sum over no tile
  is zero, and the partial sum over all `N` terms is the sum of the sequence.  This is the arithmetic of an
  accumulator that a grid carries across the steps of a reduction axis.
-/
import Mathlib.Algebra.BigOperators.Fin
import Mathlib.Algebra.BigOperators.Intervals
import Mathlib.Data.EReal.Operations

open Finset

namespace Cert.SumLaws

variable {M : Type*} [AddCommMonoid M]

/-- The squared difference of two extended reals. -/
noncomputable def sqd (a b : EReal) : EReal := (a - b) * (a - b)

/-- A finite sequence continued by zeros. -/
def padded {N : ℕ} (a : Fin N → M) (q : ℕ) : M := if h : q < N then a ⟨q, h⟩ else 0

theorem padded_of_lt {N : ℕ} (a : Fin N → M) {q : ℕ} (h : q < N) : padded a q = a ⟨q, h⟩ := dif_pos h

/-- The partial sum over everything is the sum. -/
theorem sum_range_padded {N : ℕ} (a : Fin N → M) : ∑ q ∈ range N, padded a q = ∑ q : Fin N, a q := by
  rw [Finset.sum_range]
  exact Finset.sum_congr rfl fun q _ => padded_of_lt a q.isLt

/-- One more tile: the terms `w·j, …, w·j + w - 1` are added. -/
theorem sum_range_tile_succ {N : ℕ} (a : Fin N → M) (w j : ℕ) (h : w * (j + 1) ≤ N) :
    ∑ q ∈ range (w * (j + 1)), padded a q
      = ∑ q ∈ range (w * j), padded a q
        + ∑ k : Fin w, a ⟨w * j + k.val, lt_of_lt_of_le (by rw [Nat.mul_succ]; exact Nat.add_lt_add_left k.isLt _) h⟩ := by
  refine (congrArg (fun n => ∑ q ∈ range n, padded a q) (Nat.mul_succ w j)).trans ?_
  rw [Finset.sum_range_add, Finset.sum_range (fun x => padded a (w * j + x))]
  exact congrArg _ (Finset.sum_congr rfl fun k _ => padded_of_lt a _)

/-- No tile yet: the empty sum. -/
theorem sum_range_tile_zero {N : ℕ} (a : Fin N → M) (w : ℕ) : ∑ q ∈ range (w * 0), padded a q = 0 := by
  rw [Nat.mul_zero, Finset.range_zero, Finset.sum_empty]

/-- The same when the tile count is known to be zero. -/
theorem sum_range_tile_of_eq_zero {N : ℕ} (a : Fin N → M) (w j : ℕ) (hj : j = 0) :
    ∑ q ∈ range (w * j), padded a q = 0 := by
  subst hj; exact sum_range_tile_zero a w

end Cert.SumLaws
-- ==== Proof.Feat.lean ====
import proofs.«148489_g2000000462589658_pallasbulk_581_2_alg».proof.Proof.LibMatProd
import proofs.«148489_g2000000462589658_pallasbulk_581_2_alg».proof.Proof.LibPartialSums

/-!
# Two propagation hops laid side by side

For a feature matrix `x : [4096, 256]` and a square matrix `a : [4096, 4096]` over the extended reals,
`hop a x = a · x` is one propagation step, and `feat x a` is the `[4096, 768]` array whose three column panels of
width 256 are `x`, `a · x` and `a · (a · x)`.

The product's entry at `(p, q)` is the sum over the 4096 shared coordinates; continued by zeros it is a partial sum
over a range, which is what an accumulator visiting the shared coordinate in 16 tiles of 256 adds up tile by tile.
-/

noncomputable section

open scoped BigOperators

namespace Cert.Feat

open Idealize.ShloMosaic Idealize.ShloMosaic.ValueIdx Idealize.ShloMosaic.MatProd

/-- The feature matrix's shape, the square matrix's, and the result's. -/
abbrev Sx : Shape := ⟨2, ![4096, 256]⟩
abbrev Sa : Shape := ⟨2, ![4096, 4096]⟩
abbrev So : Shape := ⟨2, ![4096, 768]⟩

/-- One propagation step: the product `a · x`. -/
def hop (a : Sa.Idx → EReal) (x : Sx.Idx → EReal) : Sx.Idx → EReal := matProd a x

theorem hop_apply (a : Sa.Idx → EReal) (x : Sx.Idx → EReal) (p : Fin 4096) (q : Fin 256) :
    hop a x (ix2 p q) = ∑ k : Fin 4096, a (ix2 p k) * x (ix2 k q) := rfl

/-- The entry of the product as a partial sum over all 4096 terms of the zero-continued sequence of products. -/
theorem hop_eq_range (a : Sa.Idx → EReal) (x : Sx.Idx → EReal) (p : Fin 4096) (q : Fin 256) :
    hop a x (ix2 p q) = ∑ n ∈ Finset.range 4096, Cert.SumLaws.padded (fun k : Fin 4096 => a (ix2 p k) * x (ix2 k q)) n :=
  (Cert.SumLaws.sum_range_padded _).symm

/-- Three arrays of 256 columns side by side. -/
def panels (u v w : Sx.Idx → EReal) : So.Idx → EReal := fun i =>
  if h : (i 1).val < 256 then u (ix2 (i 0) ⟨(i 1).val, h⟩)
  else if h2 : (i 1).val < 512 then v (ix2 (i 0) ⟨(i 1).val - 256, by omega⟩)
  else w (ix2 (i 0) ⟨(i 1).val - 512, by have h3 : (i 1).val < 768 := (i 1).isLt; omega⟩)

/-- An index in the first panel reads the first array. -/
theorem panels_left (u v w : Sx.Idx → EReal) (i : So.Idx) (p : Fin 4096) (q : Fin 256)
    (h0 : (i 0).val = p.val) (h1 : (i 1).val = q.val) : panels u v w i = u (ix2 p q) := by
  have hq : (i 1).val < 256 := by rw [h1]; exact q.isLt
  unfold panels
  rw [dif_pos hq]
  exact congrArg u (funext fun a => Fin.ext (by match a with | ⟨0, _⟩ => exact h0 | ⟨1, _⟩ => exact h1))

/-- An index in the second panel reads the second array. -/
theorem panels_mid (u v w : Sx.Idx → EReal) (i : So.Idx) (p : Fin 4096) (q : Fin 256)
    (h0 : (i 0).val = p.val) (h1 : (i 1).val = 256 + q.val) : panels u v w i = v (ix2 p q) := by
  have hq := q.isLt
  have hn : ¬ (i 1).val < 256 := by omega
  have hm : (i 1).val < 512 := by omega
  unfold panels
  rw [dif_neg hn, dif_pos hm]
  exact congrArg v (funext fun a => Fin.ext (by
    match a with
    | ⟨0, _⟩ => exact h0
    | ⟨1, _⟩ => show (i 1).val - 256 = q.val; omega))

/-- An index in the third panel reads the third array. -/
theorem panels_right (u v w : Sx.Idx → EReal) (i : So.Idx) (p : Fin 4096) (q : Fin 256)
    (h0 : (i 0).val = p.val) (h1 : (i 1).val = 512 + q.val) : panels u v w i = w (ix2 p q) := by
  have hn : ¬ (i 1).val < 256 := by omega
  have hm : ¬ (i 1).val < 512 := by omega
  unfold panels
  rw [dif_neg hn, dif_neg hm]
  exact congrArg w (funext fun a => Fin.ext (by
    match a with
    | ⟨0, _⟩ => exact h0
    | ⟨1, _⟩ => show (i 1).val - 512 = q.val; omega))

/-- The result: `x`, `a · x` and `a · (a · x)` side by side. -/
def feat (x : Sx.Idx → EReal) (a : Sa.Idx → EReal) : So.Idx → EReal := panels x (hop a x) (hop a (hop a x))

end Cert.Feat

end
-- ==== Proof.KerValue0.lean ====
import proofs.«148489_g2000000462589658_pallasbulk_581_2_alg».proof.Proof.Gen.KernelIdeal.Frame
import proofs.«148489_g2000000462589658_pallasbulk_581_2_alg».proof.Proof.Feat
import Idealize.ShloMosaic.Lib.Pipeline.Value
import Idealize.ShloMosaic.Lib.Tactic

/-!
# The first region: one propagation step, slab by slab

The first region visits the eight slabs of 512 rows of the square matrix. At slab `t` its body multiplies the slab
(rows `512 t … 512 t + 511`, all 4096 columns) with the whole feature matrix and writes the product to rows
`512 t … 512 t + 511` of the result. A block of rows of a product is the product of that block of rows with the right
operand, so every slab writes its rows of `a · x`, and the eight slabs tile the result: the result array ends holding
`a · x`.
-/

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatProd
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The first body's stored value is the product of its two loaded blocks. -/
theorem slab_product (x0 : Vec Ideal S512x4096 .f32) (x1 : Vec Ideal S4096x256 .f32) :
    k0_pay1 x0 x1 = matProd x0 x1 := by
  unfold k0_pay1
  exact matmul_eq_matProd dot_S512x4096_S4096x256_S512x256_1_0_0_1_n_n rfl rfl rfl rfl rfl rfl none x0 x1

/-- Where the first region's blocks sit: the square matrix's and the result's block at point `t` is slab `t`, the
    feature matrix's block is the whole of it. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `512 t … 512 t + 511` of `a · x`. -/
theorem flushed0_eq (c : Dev nD) (t : Fin cfg0.N) :
    (dat0 V c).flushed 2 t
      = ((cfg0.win 2).blk t).view.read (Elt Ideal) (Cert.Feat.hop (V c main_arg1) (V c main_arg0)) := by
  show (cfg0.win 2).cut (grid0.coords t) ((dat0 V c).after 2 t) = _
  rw [after0_2]
  unfold out0_2
  rw [View.canon_unit_zero zero_offsets]
  simp only [View.ld_unit_zero (S := S512x4096) zero_offsets, View.ld_unit_zero (S := S4096x256) zero_offsets]
  rw [slab_product]
  obtain ⟨e0, e1, e2, e3, e4, e5⟩ := block_indices0 t
  funext j
  show matProd (iblk0 V c 0 t) (iblk0 V c 1 t) j
    = matProd (V c main_arg1) (V c main_arg0) (((cfg0.win 2).blk t).view.emb j)
  refine matProd_rows (M := 4096) (R := 512) (K := 4096) (N := 256) (V c main_arg1) (iblk0 V c 0 t) (V c main_arg0)
    (iblk0 V c 1 t) t.val ?_ ?_ j (((cfg0.win 2).blk t).view.emb j) ?_ ?_
  · intro p r k hr
    show V c main_arg1 (((cfg0.win 0).blk t).view.emb (ix2 p k)) = V c main_arg1 (ix2 r k)
    refine congrArg (V c main_arg1) (funext fun a => Fin.ext ?_)
    match a with
    | ⟨0, _⟩ => show win0_0.index t (0 : Fin 2) * 512 + 1 * p.val = r.val; omega
    | ⟨1, _⟩ => show win0_0.index t (1 : Fin 2) * 4096 + 1 * k.val = k.val; omega
  · intro k q
    show V c main_arg0 (((cfg0.win 1).blk t).view.emb (ix2 k q)) = V c main_arg0 (ix2 k q)
    refine congrArg (V c main_arg0) (funext fun a => Fin.ext ?_)
    match a with
    | ⟨0, _⟩ => show win0_1.index t (0 : Fin 2) * 4096 + 1 * k.val = k.val; omega
    | ⟨1, _⟩ => show win0_1.index t (1 : Fin 2) * 256 + 1 * q.val = q.val; omega
  · show win0_2.index t (0 : Fin 2) * 512 + 1 * (j 0).val = t.val * 512 + (j 0).val; omega
  · show win0_2.index t (1 : Fin 2) * 256 + 1 * (j 1).val = (j 1).val; omega

/-- An index of the result is in point `t`'s block iff each coordinate is in the block's range on its axis. -/
theorem mem_block0 (t : Fin cfg0.N) (i : S4096x256.Idx) :
    i ∈ ((cfg0.win 2).blk t).view.set
      ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- Every slab is some point's. -/
theorem block_onto0 : ∀ q : Fin 8, ∃ t : Fin cfg0.N, t.val = q.val :=
  fun q => ⟨⟨q.val, by rw [show cfg0.N = 8 from N_0]; exact q.isLt⟩, rfl⟩

/-- The slabs tile the result: row `r` is in slab `r / 512`. -/
theorem cover0 (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, ht⟩ := block_onto0 ⟨(i 0).val / 512, by omega⟩
  have ht' : t.val = (i 0).val / 512 := ht
  obtain ⟨e0, e1, e2, e3, e4, e5⟩ := block_indices0 t
  refine ⟨t, flush0_2 t, ?_⟩
  rw [mem_block0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- THE FIRST REGION'S RESULT: whatever the arrays hold when the region is entered, its result array ends holding the
    product of the square matrix with the feature matrix. -/
theorem region0 (c : Dev nD) :
    (dat0 V c).arrAt 2 cfg0.N = Cert.Feat.hop (V c main_arg1) (V c main_arg0) :=
  (dat0 V c).arrAt_eq_of_cover 2 (Cert.Feat.hop (V c main_arg1) (V c main_arg0))
    (fun t _ => flushed0_eq V c t) cover0

end Cert.KernelIdeal.Hand

end
-- ==== Proof.KerValue1.lean ====
import proofs.«148489_g2000000462589658_pallasbulk_581_2_alg».proof.Proof.Gen.KernelIdeal.Frame
import proofs.«148489_g2000000462589658_pallasbulk_581_2_alg».proof.Proof.Feat
import Idealize.ShloMosaic.Lib.Pipeline.Value
import Idealize.ShloMosaic.Lib.Tactic

/-!
# The second region: the three panels, slab by slab

The second region visits the eight slabs of 512 rows again. At slab `t` its body fills a block of 512 rows and 768
columns with three stores of 256 columns each: columns `0 … 255` take rows `512 t … 512 t + 511` of the feature matrix,
columns `256 … 511` take the same rows of the first product, and columns `512 … 767` take the product of the square
matrix's slab with the whole first product, which is those rows of the second product. The block is written to rows
`512 t … 512 t + 511` of the result, and the eight slabs tile it: the result ends holding the feature matrix, the first
product and the product of the square matrix with the first product side by side.
-/

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatProd
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-! ## The body's three stores -/

/-- The three column panels of a block of 512 rows and 768 columns. -/
abbrev panelL : Rect S512x768 := Rect.unit (s := S512x768) ![0, 0] S512x256.size inb_S512x768_S512x256_0_0
abbrev panelM : Rect S512x768 := Rect.unit (s := S512x768) ![0, 256] S512x256.size inb_S512x768_S512x256_0_256
abbrev panelR : Rect S512x768 := Rect.unit (s := S512x768) ![0, 512] S512x256.size inb_S512x768_S512x256_0_512

/-- A block filled panel by panel: the left panel first, the right panel last. -/
def threePanels (wL wM wR : Vec Ideal S512x256 .f32) : Vec Ideal S512x768 .f32 :=
  View.canon (Val := Elt Ideal) [(⟨panelR, wR⟩ : View.Piece (Elt Ideal) S512x768 .f32), ⟨panelM, wM⟩, ⟨panelL, wL⟩]

/-- An index in the left panel reads the first store. -/
theorem threePanels_left (wL wM wR : Vec Ideal S512x256 .f32) (j : S512x768.Idx) (p : Fin 512) (q : Fin 256)
    (h0 : (j 0).val = p.val) (h1 : (j 1).val = q.val) : threePanels wL wM wR j = wL (ix2 p q) := by
  have hq := q.isLt
  have hj : j = panelL.emb (ix2 p q) := funext fun a => Fin.ext (by
    match a with
    | ⟨0, _⟩ => show (j 0).val = 0 + 1 * p.val; omega
    | ⟨1, _⟩ => show (j 1).val = 0 + 1 * q.val; omega)
  have nR : j ∉ panelR.set := by
    rw [Rect.mem_set_unit]; intro h
    have : 512 ≤ (j 1).val := (h 1).1
    omega
  have nM : j ∉ panelM.set := by
    rw [Rect.mem_set_unit]; intro h
    have : 256 ≤ (j 1).val := (h 1).1
    omega
  unfold threePanels
  refine (View.canon_cons_of_not_mem (Val := Elt Ideal) (⟨panelR, wR⟩ : View.Piece (Elt Ideal) S512x768 .f32)
    [(⟨panelM, wM⟩ : View.Piece (Elt Ideal) S512x768 .f32), ⟨panelL, wL⟩] nR).trans ?_
  refine (View.canon_cons_of_not_mem (Val := Elt Ideal) (⟨panelM, wM⟩ : View.Piece (Elt Ideal) S512x768 .f32)
    [(⟨panelL, wL⟩ : View.Piece (Elt Ideal) S512x768 .f32)] nM).trans ?_
  rw [hj]
  exact View.canon_cons_emb (Val := Elt Ideal) (e := .f32) panelL wL [] (ix2 p q)

/-- An index in the middle panel reads the second store. -/
theorem threePanels_mid (wL wM wR : Vec Ideal S512x256 .f32) (j : S512x768.Idx) (p : Fin 512) (q : Fin 256)
    (h0 : (j 0).val = p.val) (h1 : (j 1).val = 256 + q.val) : threePanels wL wM wR j = wM (ix2 p q) := by
  have hq := q.isLt
  have hj : j = panelM.emb (ix2 p q) := funext fun a => Fin.ext (by
    match a with
    | ⟨0, _⟩ => show (j 0).val = 0 + 1 * p.val; omega
    | ⟨1, _⟩ => show (j 1).val = 256 + 1 * q.val; omega)
  have nR : j ∉ panelR.set := by
    rw [Rect.mem_set_unit]; intro h
    have : 512 ≤ (j 1).val := (h 1).1
    omega
  unfold threePanels
  refine (View.canon_cons_of_not_mem (Val := Elt Ideal) (⟨panelR, wR⟩ : View.Piece (Elt Ideal) S512x768 .f32)
    [(⟨panelM, wM⟩ : View.Piece (Elt Ideal) S512x768 .f32), ⟨panelL, wL⟩] nR).trans ?_
  rw [hj]
  exact View.canon_cons_emb (Val := Elt Ideal) (e := .f32) panelM wM
    [(⟨panelL, wL⟩ : View.Piece (Elt Ideal) S512x768 .f32)] (ix2 p q)

/-- An index in the right panel reads the third store. -/
theorem threePanels_right (wL wM wR : Vec Ideal S512x256 .f32) (j : S512x768.Idx) (p : Fin 512) (q : Fin 256)
    (h0 : (j 0).val = p.val) (h1 : (j 1).val = 512 + q.val) : threePanels wL wM wR j = wR (ix2 p q) := by
  have hj : j = panelR.emb (ix2 p q) := funext fun a => Fin.ext (by
    match a with
    | ⟨0, _⟩ => show (j 0).val = 0 + 1 * p.val; omega
    | ⟨1, _⟩ => show (j 1).val = 512 + 1 * q.val; omega)
  unfold threePanels
  rw [hj]
  exact View.canon_cons_emb (Val := Elt Ideal) (e := .f32) panelR wR
    [(⟨panelM, wM⟩ : View.Piece (Elt Ideal) S512x768 .f32), ⟨panelL, wL⟩] (ix2 p q)

/-- The copied panels pass their loaded block through unchanged. -/
theorem copy_payload (v : Vec Ideal S512x256 .f32) : k1_pay1 v = v := by
  unfold k1_pay1
  exact shapeCast_self _ _

/-- The right panel's stored value is the product of the two loaded blocks. -/
theorem product_payload (x0 : Vec Ideal S512x4096 .f32) (x2 : Vec Ideal S4096x256 .f32) :
    k1_pay2 x0 x2 = matProd x0 x2 := by
  unfold k1_pay2
  rw [shapeCast_self]
  exact matmul_eq_matProd dot_S512x4096_S4096x256_S512x256_1_0_0_1_n_n rfl rfl rfl rfl rfl rfl none x0 x2

/-- The rows of a whole array of 256 columns that the body copies at grid coordinates `i`. -/
abbrev slabRows (i : grid1.Coords) : Rect S4096x256 :=
  Rect.unit (s := S4096x256) (k1_off1 i) S512x256.size (k1_off1_inb i)

/-- WHAT THE BODY LEAVES in the output's staging buffer: the three panels, from the blocks it loaded. -/
theorem stored1 (c : Dev nD) (i : grid1.Coords) (arg1 : Memref sig .tc .vmem S512x4096 .f32) (harg1 : arg1.IsWhole)
    (arg2 : Memref sig .tc .vmem S4096x256 .f32) (harg2 : arg2.IsWhole) (arg3 : Memref sig .tc .vmem S4096x256 .f32)
    (harg3 : arg3.IsWhole) (arg4 : Memref sig .tc .vmem S512x768 .f32) (harg4 : arg4.IsWhole)
    (x0 : Vec Ideal S512x4096 .f32) (x1 : Vec Ideal S4096x256 .f32) (x2 : Vec Ideal S4096x256 .f32) :
    out1_A_3 c i arg1 harg1 arg2 harg2 arg3 harg3 arg4 harg4 x0 x1 x2
      = threePanels (View.ld x1 (slabRows i)) (View.ld x2 (slabRows i)) (matProd x0 x2) := by
  unfold out1_A_3
  rw [View.read_writes_junk_eq_canon]
  unfold kernelRun1_A
  dsimp only
  simp only [View.readAt_eq_ld, harg1.read_unread, harg2.read_unread, harg3.read_unread,
    View.ld_unit_zero (S := S512x4096) origin2, View.ld_unit_zero (S := S4096x256) origin2]
  rw [copy_payload, product_payload]
  rfl

/-- A copied block's row `p` is row `512 b + p` of the array it is copied from, `b` the slab's number. -/
theorem slabRows_apply (i : grid1.Coords) (x : Vec Ideal S4096x256 .f32) (p : Fin 512) (q : Fin 256) (r : Fin 4096)
    (hr : r.val = 512 * (i 0).val + p.val) : View.ld x (slabRows i) (ix2 p q) = x (ix2 r q) := by
  show x ((slabRows i).idx (ix2 p q)) = x (ix2 r q)
  refine congrArg x (funext fun a => Fin.ext ?_)
  match a with
  | ⟨0, _⟩ =>
    show k1_off1 i 0 + 1 * p.val = r.val
    rw [k1_off1_eq]
    show 512 * (i 0).val + 1 * p.val = r.val
    omega
  | ⟨1, _⟩ =>
    show k1_off1 i 1 + 1 * q.val = q.val
    rw [k1_off1_eq]
    show 0 + 1 * q.val = q.val
    omega

/-- THE BLOCK AT SLAB `b`, entry by entry: if the loaded blocks are slab `b` of `a`, the whole of `u` and the whole of
    `v`, the block's entry `j` is the entry at row `512 b + j₀`, column `j₁` of `u`, `v` and `a · v` side by side. -/
theorem block_value (i : grid1.Coords) (x0 : Vec Ideal S512x4096 .f32) (x1 x2 : Vec Ideal S4096x256 .f32)
    (a : Cert.Feat.Sa.Idx → EReal) (u v : Cert.Feat.Sx.Idx → EReal) (b : Nat) (hb : (i 0).val = b)
    (hrows : ∀ (p : Fin 512) (r : Fin 4096) (k : Fin 4096), r.val = b * 512 + p.val → x0 (ix2 p k) = a (ix2 r k))
    (hu : ∀ (k : Fin 4096) (q : Fin 256), x1 (ix2 k q) = u (ix2 k q))
    (hv : ∀ (k : Fin 4096) (q : Fin 256), x2 (ix2 k q) = v (ix2 k q))
    (j : S512x768.Idx) (y : Cert.Feat.So.Idx) (hy0 : (y 0).val = b * 512 + (j 0).val) (hy1 : (y 1).val = (j 1).val) :
    threePanels (View.ld x1 (slabRows i)) (View.ld x2 (slabRows i)) (matProd x0 x2) j
      = Cert.Feat.panels u v (Cert.Feat.hop a v) y := by
  have hj0 : (j 0).val < 512 := (j 0).isLt
  have hj1 : (j 1).val < 768 := (j 1).isLt
  have hyr : (y 0).val < 4096 := (y 0).isLt
  have hr : (⟨(y 0).val, hyr⟩ : Fin 4096).val = 512 * (i 0).val + (⟨(j 0).val, hj0⟩ : Fin 512).val := by
    show (y 0).val = 512 * (i 0).val + (j 0).val; omega
  by_cases hA : (j 1).val < 256
  · refine (threePanels_left _ _ _ j ⟨(j 0).val, hj0⟩ ⟨(j 1).val, hA⟩ rfl rfl).trans ?_
    refine (slabRows_apply i x1 ⟨(j 0).val, hj0⟩ ⟨(j 1).val, hA⟩ ⟨(y 0).val, hyr⟩ hr).trans ?_
    refine (hu _ _).trans ?_
    exact (Cert.Feat.panels_left u v (Cert.Feat.hop a v) y ⟨(y 0).val, hyr⟩ ⟨(j 1).val, hA⟩ rfl hy1).symm
  · by_cases hB : (j 1).val < 512
    · have hq : (j 1).val - 256 < 256 := by omega
      refine (threePanels_mid _ _ _ j ⟨(j 0).val, hj0⟩ ⟨(j 1).val - 256, hq⟩ rfl
        (show (j 1).val = 256 + ((j 1).val - 256) by omega)).trans ?_
      refine (slabRows_apply i x2 ⟨(j 0).val, hj0⟩ ⟨(j 1).val - 256, hq⟩ ⟨(y 0).val, hyr⟩ hr).trans ?_
      refine (hv _ _).trans ?_
      exact (Cert.Feat.panels_mid u v (Cert.Feat.hop a v) y ⟨(y 0).val, hyr⟩ ⟨(j 1).val - 256, hq⟩ rfl
        (show (y 1).val = 256 + ((j 1).val - 256) by omega)).symm
    · have hq : (j 1).val - 512 < 256 := by omega
      refine (threePanels_right _ _ _ j ⟨(j 0).val, hj0⟩ ⟨(j 1).val - 512, hq⟩ rfl
        (show (j 1).val = 512 + ((j 1).val - 512) by omega)).trans ?_
      refine Eq.trans ?_ (Cert.Feat.panels_right u v (Cert.Feat.hop a v) y ⟨(y 0).val, hyr⟩ ⟨(j 1).val - 512, hq⟩ rfl
        (show (y 1).val = 512 + ((j 1).val - 512) by omega)).symm
      show matProd x0 x2 (ix2 ⟨(j 0).val, hj0⟩ ⟨(j 1).val - 512, hq⟩)
        = matProd a v (ix2 ⟨(y 0).val, hyr⟩ ⟨(j 1).val - 512, hq⟩)
      exact matProd_rows (M := 4096) (R := 512) (K := 4096) (N := 256) a x0 v x2 b hrows hv
        (ix2 ⟨(j 0).val, hj0⟩ ⟨(j 1).val - 512, hq⟩) (ix2 ⟨(y 0).val, hyr⟩ ⟨(j 1).val - 512, hq⟩)
        (show (y 0).val = b * 512 + (j 0).val from hy0) rfl

/-! ## From blocks to the array -/

/-- Where the second region's blocks sit: the square matrix's and the result's block at point `t` is slab `t`, the
    feature matrix's and the first product's block is the whole array; the body's grid coordinate is the point. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ (grid1.coords t 0).val = t.val :=
  (by decide +kernel : ∀ t : Fin grid1.N, _)

/-- What point `t` writes back is rows `512 t … 512 t + 511` of the three arrays side by side. -/
theorem flushed1_eq (c : Dev nD) (t : Fin cfg1.N) :
    (dat1 V c).flushed 3 t
      = ((cfg1.win 3).blk t).view.read (Elt Ideal)
          (Cert.Feat.panels (V c main_arg0) (V c main_v0) (Cert.Feat.hop (V c main_arg1) (V c main_v0))) := by
  show (cfg1.win 3).cut (grid1.coords t) ((dat1 V c).after 3 t) = _
  rw [after1_3]
  unfold outsAt1
  rw [stored1]
  obtain ⟨e0, e1, e2, e3, e4, e5, e6, e7, e8⟩ := block_indices1 t
  funext j
  show threePanels (View.ld (iblk1 V c 1 t) (slabRows (grid1.coords t))) (View.ld (iblk1 V c 2 t) (slabRows (grid1.coords t)))
      (matProd (iblk1 V c 0 t) (iblk1 V c 2 t)) j
    = Cert.Feat.panels (V c main_arg0) (V c main_v0) (Cert.Feat.hop (V c main_arg1) (V c main_v0))
        (((cfg1.win 3).blk t).view.emb j)
  refine block_value (grid1.coords t) (iblk1 V c 0 t) (iblk1 V c 1 t) (iblk1 V c 2 t) (V c main_arg1) (V c main_arg0)
    (V c main_v0) t.val e8 ?_ ?_ ?_ j (((cfg1.win 3).blk t).view.emb j) ?_ ?_
  · intro p r k hr
    show V c main_arg1 (((cfg1.win 0).blk t).view.emb (ix2 p k)) = V c main_arg1 (ix2 r k)
    refine congrArg (V c main_arg1) (funext fun a => Fin.ext ?_)
    match a with
    | ⟨0, _⟩ => show win1_0.index t (0 : Fin 2) * 512 + 1 * p.val = r.val; omega
    | ⟨1, _⟩ => show win1_0.index t (1 : Fin 2) * 4096 + 1 * k.val = k.val; omega
  · intro k q
    show V c main_arg0 (((cfg1.win 1).blk t).view.emb (ix2 k q)) = V c main_arg0 (ix2 k q)
    refine congrArg (V c main_arg0) (funext fun a => Fin.ext ?_)
    match a with
    | ⟨0, _⟩ => show win1_1.index t (0 : Fin 2) * 4096 + 1 * k.val = k.val; omega
    | ⟨1, _⟩ => show win1_1.index t (1 : Fin 2) * 256 + 1 * q.val = q.val; omega
  · intro k q
    show V c main_v0 (((cfg1.win 2).blk t).view.emb (ix2 k q)) = V c main_v0 (ix2 k q)
    refine congrArg (V c main_v0) (funext fun a => Fin.ext ?_)
    match a with
    | ⟨0, _⟩ => show win1_2.index t (0 : Fin 2) * 4096 + 1 * k.val = k.val; omega
    | ⟨1, _⟩ => show win1_2.index t (1 : Fin 2) * 256 + 1 * q.val = q.val; omega
  · show win1_3.index t (0 : Fin 2) * 512 + 1 * (j 0).val = t.val * 512 + (j 0).val; omega
  · show win1_3.index t (1 : Fin 2) * 768 + 1 * (j 1).val = (j 1).val; omega

/-- An index of the result is in point `t`'s block iff each coordinate is in the block's range on its axis. -/
theorem mem_block1 (t : Fin cfg1.N) (i : S4096x768.Idx) :
    i ∈ ((cfg1.win 3).blk t).view.set
      ↔ ∀ a : Fin 2, win1_3.index t a * S512x768.size a ≤ (i a).val ∧ (i a).val < win1_3.index t a * S512x768.size a + S512x768.size a := by
  show i ∈ ((View.whole main_v1).slice (win1_3.rect t)).set ↔ _
  rw [View.set_slice_whole, Rect.mem_set_unit]
  exact Iff.rfl

/-- The slabs tile the result: row `r` is in slab `r / 512`. -/
theorem cover1 (i : S4096x768.Idx) :
    ∃ t : Fin cfg1.N, (cfg1.win 3).flush t = true ∧ i ∈ ((cfg1.win 3).blk t).view.set := by
  have hi0 : (i 0).val < 4096 := (i 0).isLt
  have hi1 : (i 1).val < 768 := (i 1).isLt
  have hN : cfg1.N = 8 := N_1
  have ht' : (⟨(i 0).val / 512, by rw [hN]; omega⟩ : Fin cfg1.N).val = (i 0).val / 512 := rfl
  obtain ⟨e0, e1, e2, e3, e4, e5, e6, e7, e8⟩ := block_indices1 ⟨(i 0).val / 512, by rw [hN]; omega⟩
  refine ⟨⟨(i 0).val / 512, by rw [hN]; omega⟩, flush1_3 _, ?_⟩
  rw [mem_block1]
  intro a
  match a with
  | ⟨0, _⟩ =>
    show win1_3.index ⟨(i 0).val / 512, _⟩ (0 : Fin 2) * 512 ≤ (i 0).val
      ∧ (i 0).val < win1_3.index ⟨(i 0).val / 512, _⟩ (0 : Fin 2) * 512 + 512
    omega
  | ⟨1, _⟩ =>
    show win1_3.index ⟨(i 0).val / 512, _⟩ (1 : Fin 2) * 768 ≤ (i 1).val
      ∧ (i 1).val < win1_3.index ⟨(i 0).val / 512, _⟩ (1 : Fin 2) * 768 + 768
    omega

/-- THE SECOND REGION'S RESULT: whatever the arrays hold when the region is entered, its result array ends holding the
    feature matrix, the first product, and the product of the square matrix with the first product, side by side. -/
theorem region1 (c : Dev nD) :
    (dat1 V c).arrAt 3 cfg1.N
      = Cert.Feat.panels (V c main_arg0) (V c main_v0) (Cert.Feat.hop (V c main_arg1) (V c main_v0)) :=
  (dat1 V c).arrAt_eq_of_cover 3
    (Cert.Feat.panels (V c main_arg0) (V c main_v0) (Cert.Feat.hop (V c main_arg1) (V c main_v0)))
    (fun t _ => flushed1_eq V c t) cover1

end Cert.KernelIdeal.Hand

end
-- ==== Proof.KerValue.lean ====
import proofs.«148489_g2000000462589658_pallasbulk_581_2_alg».proof.Proof.KerRun
import proofs.«148489_g2000000462589658_pallasbulk_581_2_alg».proof.Proof.KerValue0
import proofs.«148489_g2000000462589658_pallasbulk_581_2_alg».proof.Proof.KerValue1

/-!
# What the program computes

The program runs two regions. The first leaves `a · x` in its result array and the arguments as they were; the second
reads the arguments and that product and leaves `x`, `a · x` and `a · (a · x)` side by side in the program's result.
-/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The second region finds the feature matrix as launched: the first region only reads it. -/
theorem entry1_arg0 (c : Dev nD) : V1 m ρ c main_arg0 = m ((c : Thread nD τ).loc main_arg0) :=
  calc W1 m ρ c (Proc.devRef .tc main_arg0)
    _ = W0 m ρ c (Proc.devRef .tc main_arg0) :=
        (W1_arr m ρ c 1).trans (((dat0 (V0 m ρ) c).arrAt_in 1 rfl _).trans (A_eq0 (V0 m ρ) c 1))
    _ = m ((c : Thread nD τ).loc main_arg0) := rfl

/-- The second region finds the square matrix as launched. -/
theorem entry1_arg1 (c : Dev nD) : V1 m ρ c main_arg1 = m ((c : Thread nD τ).loc main_arg1) :=
  calc W1 m ρ c (Proc.devRef .tc main_arg1)
    _ = W0 m ρ c (Proc.devRef .tc main_arg1) :=
        (W1_arr m ρ c 0).trans (((dat0 (V0 m ρ) c).arrAt_in 0 rfl _).trans (A_eq0 (V0 m ρ) c 0))
    _ = m ((c : Thread nD τ).loc main_arg1) := rfl

/-- The second region finds the first product where the first region left it. -/
theorem entry1_v0 (c : Dev nD) :
    V1 m ρ c main_v0
      = Cert.Feat.hop (m ((c : Thread nD τ).loc main_arg1)) (m ((c : Thread nD τ).loc main_arg0)) :=
  calc W1 m ρ c (Proc.devRef .tc main_v0)
    _ = (dat0 (V0 m ρ) c).arrAt 2 cfg0.N := W1_arr m ρ c 2
    _ = Cert.Feat.hop (V0 m ρ c main_arg1) (V0 m ρ c main_arg0) := region0 (V0 m ρ) c
    _ = Cert.Feat.hop (m ((c : Thread nD τ).loc main_arg1)) (m ((c : Thread nD τ).loc main_arg0)) := rfl

/-- The result array after both regions: the three panels of the launched arguments. -/
theorem result_eq (c : Dev nD) :
    W2 m ρ c (Proc.devRef .tc main_v1)
      = Cert.Feat.feat (m ((c : Thread nD τ).loc main_arg0)) (m ((c : Thread nD τ).loc main_arg1)) := by
  refine (W2_arr m ρ c 3).trans ?_
  refine (region1 (V1 m ρ) c).trans ?_
  rw [entry1_arg0 m ρ c, entry1_arg1 m ρ c, entry1_v0 m ρ c]
  rfl

/-- THE PROGRAM'S RUN at the extended reals: from any memory with zero counters every weakly fair execution terminates,
    and every final state has the result array at `x`, `a · x` and `a · (a · x)` side by side, the arguments as launched. -/
theorem run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread _ Cert.KernelIdeal.τ).loc Cert.KernelIdeal.main_v1)
          = Cert.Feat.feat (m ((c.tc : Thread _ Cert.KernelIdeal.τ).loc Cert.KernelIdeal.main_arg0))
              (m ((c.tc : Thread _ Cert.KernelIdeal.τ).loc Cert.KernelIdeal.main_arg1))
        ∧ r.2.mem ((c.tc : Thread _ Cert.KernelIdeal.τ).loc Cert.KernelIdeal.main_arg0)
          = m ((c.tc : Thread _ Cert.KernelIdeal.τ).loc Cert.KernelIdeal.main_arg0)
        ∧ r.2.mem ((c.tc : Thread _ Cert.KernelIdeal.τ).loc Cert.KernelIdeal.main_arg1)
          = m ((c.tc : Thread _ Cert.KernelIdeal.τ).loc Cert.KernelIdeal.main_arg1)) :=
  (θ_run defs _ _).mono (fun r h c => ⟨(h c).1.trans (result_eq m ρ c), (h c).2.1, (h c).2.2⟩) (run_named m ρ)

end Cert.KernelIdeal.Hand

end
-- ==== Proof.RefRegions.lean ====
import proofs.«148489_g2000000462589658_pallasbulk_581_2_alg».proof.Proof.Gen.ReferenceIdeal.Launch
import proofs.«148489_g2000000462589658_pallasbulk_581_2_alg».proof.Proof.Gen.ReferenceIdeal.Skeleton
import proofs.«148489_g2000000462589658_pallasbulk_581_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-!
# The reference program as two kernel regions

The reference runs two pipelined kernels one after the other: the first leaves `a · x` in an intermediate array, the
second reads that array twice (as the right operand of the second product, tile by tile, and row block by row block for
the middle panel) and leaves the result. Each region's frame data (what the staging buffers and the carried
accumulator hold point by point, and the body's obligation) is a parameter here; this module carries the buffers'
contents across the two regions:

* before the first region every buffer holds its launch contents;
* after it the intermediate array holds what the first pipeline's write-backs leave, every other buffer is unchanged;
* after the second region the result array holds what the second pipeline's write-backs leave.

The second region's two readers of the intermediate array each hold half of it: the whole share is split at entry and
joined again at exit, the contents being the same on both halves since neither window writes.
-/

set_option maxRecDepth 16384

noncomputable section

namespace Cert.ReferenceIdeal.Regions

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents, core by core. -/
abbrev Contents (F : FTy → Type) [FloatOps F] : Type := (c : Dev nD) → (b : Ref sig .tc) → Buf (Elt F) ((c : Thread nD τ).loc b)

/-- What the first region's frame data must provide: the arrays as the region finds them, whole shares, nothing owed,
    the body's obligation, and the invariant from and back to the scoped rest with the generator register. -/
structure Data0 (D0 : Contents F → (c : Dev nD) → Dat τ (Elt F) Unit ℕ (UR sig nD τ) ℕ cfg0 c) : Prop where
  hA : ∀ V c w, (D0 V c).A w = V c (Pipeline.arrRef spec0 w)
  hq : ∀ V c w, (D0 V c).q w = fullShare
  howed : ∀ V c t, (D0 V c).owed t = 0
  hrec : ∀ V c t, (D0 V c).recorded t = Set.univ
  hbody : ∀ V c, BodyObligation (D0 V c) (defs₀ (F := F)) Variants.none () Set.univ
  hin : ∀ V c, (Pipeline.ΦA spec0 c : sProp 𝕄) ⊢ (D0 V c).Φ 0
  hout : ∀ V c, (D0 V c).Φ (Fin.last cfg0.N) ⊢ (Pipeline.ΦA spec0 c : sProp 𝕄)

/-- The same for the second region, whose windows 1 and 3 read one array at half the share each. -/
structure Data1 (D1 : Contents F → (c : Dev nD) → Dat τ (Elt F) Unit ℕ (UR sig nD τ) ℕ cfg1 c) : Prop where
  hA : ∀ V c w, (D1 V c).A w = V c (Pipeline.arrRef spec1 w)
  hq0 : ∀ V c, (D1 V c).q 0 = fullShare
  hq1 : ∀ V c, (D1 V c).q 1 = fullShare.left
  hq2 : ∀ V c, (D1 V c).q 2 = fullShare
  hq3 : ∀ V c, (D1 V c).q 3 = fullShare.right
  howed : ∀ V c t, (D1 V c).owed t = 0
  hrec : ∀ V c t, (D1 V c).recorded t = Set.univ
  hbody : ∀ V c, BodyObligation (D1 V c) (defs₀ (F := F)) Variants.none () Set.univ
  hin : ∀ V c, (Pipeline.ΦA spec1 c : sProp 𝕄) ⊢ (D1 V c).Φ 0
  hout : ∀ V c, (D1 V c).Φ (Fin.last cfg1.N) ⊢ (Pipeline.ΦA spec1 c : sProp 𝕄)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (m : (ℓ : Loc nD τ sig) → Buf (Elt F) ℓ) (ρ : Dev nD → PrngReg)

/-! ## The buffers' contents at the three boundaries -/

/-- At launch. -/
abbrev W0 : Dev nD → Valuation τ sig (Elt F) := fun c b => (s₀ m ρ).mem ((c : Dev nD), b)
abbrev V0 : Contents F := fun c b => W0 m ρ c b
/-- After the first region: the intermediate array at what the first pipeline leaves. -/
def W1 (c : Dev nD) : Valuation τ sig (Elt F) :=
  Function.update (W0 m ρ c) (Proc.devRef .tc main_call0_v0) ((D0 (V0 m ρ) c).arrAt 2 cfg0.N)
abbrev V1 : Contents F := fun c b => W1 D0 m ρ c b
/-- After the second region: the result array at what the second pipeline leaves. -/
def W2 (c : Dev nD) : Valuation τ sig (Elt F) :=
  Function.update (W1 D0 m ρ c) (Proc.devRef .tc main_v0) ((D1 (V1 D0 m ρ) c).arrAt 4 cfg1.N)
abbrev V2 : Contents F := fun c b => W2 D0 D1 m ρ c b

theorem W1_out (c : Dev nD) : W1 D0 m ρ c (Proc.devRef .tc main_call0_v0) = (D0 (V0 m ρ) c).arrAt 2 cfg0.N := by
  unfold W1; exact Function.update_self _ _ _
theorem W1_of_ne (c : Dev nD) (b : Ref sig .tc) (hb : b ≠ main_call0_v0) :
    W1 D0 m ρ c (Proc.devRef .tc b) = W0 m ρ c (Proc.devRef .tc b) := by
  unfold W1; exact Function.update_of_ne (StableHlo.devRef_ne_of_ne hb) _ _
theorem W2_out (c : Dev nD) : W2 D0 D1 m ρ c (Proc.devRef .tc main_v0) = (D1 (V1 D0 m ρ) c).arrAt 4 cfg1.N := by
  unfold W2; exact Function.update_self _ _ _
theorem W2_of_ne (c : Dev nD) (b : Ref sig .tc) (hb : b ≠ main_v0) :
    W2 D0 D1 m ρ c (Proc.devRef .tc b) = W1 D0 m ρ c (Proc.devRef .tc b) := by
  unfold W2; exact Function.update_of_ne (StableHlo.devRef_ne_of_ne hb) _ _

/-! ## The proof data family and the thread state -/

/-- No pipeline prefetches a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => D0 (V0 m ρ) c
  | ⟨1, _⟩ => fun c => D1 (V1 D0 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable {D0 D1}

/-- After the first region each of its arrays holds what the pipeline leaves there: the inputs as found, the output its
    write-backs. -/
theorem hF0 (h0 : Data0 D0) (c : Dev nD) (w : Fin cfg0.W) :
    (D0 (V0 m ρ) c).arrAt w cfg0.N = V1 D0 m ρ c (Pipeline.arrRef spec0 w) := by
  match w with
  | ⟨0, _⟩ => exact (((D0 (V0 m ρ) c).arrAt_in 0 rfl _).trans (h0.hA _ c 0)).trans (W1_of_ne D0 m ρ c main_arg1 (by decide)).symm
  | ⟨1, _⟩ => exact (((D0 (V0 m ρ) c).arrAt_in 1 rfl _).trans (h0.hA _ c 1)).trans (W1_of_ne D0 m ρ c main_arg0 (by decide)).symm
  | ⟨2, _⟩ => exact (W1_out D0 m ρ c).symm
theorem hrest0 (c : Dev nD) : ∀ b, b ∉ Finset.univ.image (Pipeline.arrRef spec0) → V1 D0 m ρ c b = V0 m ρ c b :=
  fun b hb => W1_of_ne D0 m ρ c b fun e => hb (Finset.mem_image.mpr ⟨2, Finset.mem_univ _, e.symm⟩)

set_option backward.isDefEq.respectTransparency.types false in
/-- The first region over the thread state: entered from every unscoped buffer at its launch contents, left with the
    intermediate array at what the pipeline wrote back. -/
def reg0 (h0 : Data0 D0) : Pipeline.RegionSeg (pcfgs (F := F)) adm (pdats D0 D1 m ρ) () defs₀ 𝒱₀ L lv 0 where
  win := launch0.win.to₀
  block_pos := launch0.block_pos
  stage_whole := launch0.stage_whole
  K := PEmpty
  osem k := k.elim
  ho := Pipeline.OwnSemFacts.none _
  hbody c := (h0.hbody (V0 m ρ) c).loose
  hwaits := Pipeline.hwaits_of_owed_zero _ _ _ _ L lv 0 fun c t => h0.howed (V0 m ρ) c t
  pre c := iprop(StableHlo.held (c : Thread nD τ) (Pipeline.ucRefs τ sig) (W0 m ρ c) ∗ R c)
  post c := iprop(StableHlo.held (c : Thread nD τ) (Pipeline.ucRefs τ sig) (W1 D0 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats D0 D1 m ρ) launch0.win launch0.arr_whole c
      ((pdats D0 D1 m ρ 0 c).share_full fun w => h0.hq (V0 m ρ) c w) (V0 m ρ c) fun w => h0.hA (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 m ρ 0 c).owed 0 = 0 from h0.howed _ c 0]
      icases HO with ⟨%W, HO⟩; iexists W; isplitr
      · ipureintro; exact fun x _ => Or.inl (by rw [show (pdats D0 D1 m ρ 0 c).recorded 0 = Set.univ from h0.hrec _ c 0]; trivial)
      iexact HO
    isplitl [Hp]; · iexact Hp
    iexact Hrest
  hin c := by
    exact (show _ ⊢ (Pipeline.ΦA spec0 c : sProp 𝕄) from by
      unfold Pipeline.ΦA
      iintro ⟨Hp, -, Hr⟩
      isplitl [Hr]; · iexact Hr
      iexact Hp).trans (h0.hin (V0 m ρ) c)
  hout c := by
    refine (h0.hout (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 D1 m ρ) ((pdats D0 D1 m ρ 0 c).share_full fun w => h0.hq (V0 m ρ) c w)
      (V0 m ρ c) (V1 D0 m ρ c) ((pdats D0 D1 m ρ 0 c).arrAt · cfg0.N) (hF0 m ρ h0 c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats D0 D1 m ρ 0 c).owed (Fin.last _) = 0 from h0.howed _ c _]
    icases HO with ⟨%W, -, HO⟩; iexists W; iexact HO

/-! ## The second region's arrays: one of them read through two windows -/

/-- The core's unscoped buffers are the two arguments, the intermediate array and the result. -/
theorem unscopedBufs_four (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_call0_v0) ↦{fullShare} V main_call0_v0) ∗ (((c : Thread nD τ).loc main_v0) ↦{fullShare} V main_v0)) := by
  unfold unscopedBufs
  exact bigSep_eq_bigSepL_of_eq [main_arg0, main_arg1, main_call0_v0, main_v0] (by decide) (by decide) _

theorem share1_0 (h1 : Data1 D1) (V : Contents F) (c : Dev nD) : (D1 V c).share 0 = fullShare := by
  unfold Dat.share; exact (if_neg (by decide)).trans (h1.hq0 V c)
theorem share1_1 (h1 : Data1 D1) (V : Contents F) (c : Dev nD) : (D1 V c).share 1 = fullShare.left := by
  unfold Dat.share; exact (if_neg (by decide)).trans (h1.hq1 V c)
theorem share1_2 (h1 : Data1 D1) (V : Contents F) (c : Dev nD) : (D1 V c).share 2 = fullShare := by
  unfold Dat.share; exact (if_neg (by decide)).trans (h1.hq2 V c)
theorem share1_3 (h1 : Data1 D1) (V : Contents F) (c : Dev nD) : (D1 V c).share 3 = fullShare.right := by
  unfold Dat.share; exact (if_neg (by decide)).trans (h1.hq3 V c)
theorem share1_4 (V : Contents F) (c : Dev nD) : (D1 V c).share 4 = fullShare := by
  unfold Dat.share; exact if_pos (by decide)

/-- The second pipeline's arrays, window by window: the intermediate array appears twice, at the two halves of the share. -/
theorem arrays1_eq (h1 : Data1 D1) (V : Contents F) (c : Dev nD)
    (Fs : (w : Fin cfg1.W) → Buf (Elt F) ((cfg1.win w).arr.view.loc (c : Thread nD τ))) :
    ((D1 V c).arrays Fs : sProp 𝕄)
      = iprop((((c : Thread nD τ).loc main_arg1) ↦{fullShare} Fs 0) ∗ (((c : Thread nD τ).loc main_call0_v0) ↦{fullShare.left} Fs 1)
          ∗ (((c : Thread nD τ).loc main_arg0) ↦{fullShare} Fs 2) ∗ (((c : Thread nD τ).loc main_call0_v0) ↦{fullShare.right} Fs 3)
          ∗ (((c : Thread nD τ).loc main_v0) ↦{fullShare} Fs 4)) := by
  unfold Dat.arrays
  rw [bigSep_W1, share1_0 h1, share1_1 h1, share1_2 h1, share1_3 h1, share1_4,
    (arr_whole1 0).set_eq_univ, (arr_whole1 1).set_eq_univ, (arr_whole1 2).set_eq_univ, (arr_whole1 4).set_eq_univ]

/-- ENTRY of the second region: the four buffers, held whole, are the pipeline's five arrays — the intermediate array's
    share split in two, one half under each of its readers. -/
theorem entry1 (h1 : Data1 D1) (V : Contents F) (c : Dev nD) (W : Valuation τ sig (Elt F))
    (Fs : (w : Fin cfg1.W) → Buf (Elt F) ((cfg1.win w).arr.view.loc (c : Thread nD τ)))
    (e0 : Fs 0 = W (Proc.devRef .tc main_arg1)) (e1 : Fs 1 = W (Proc.devRef .tc main_call0_v0)) (e2 : Fs 2 = W (Proc.devRef .tc main_arg0))
    (e3 : Fs 3 = W (Proc.devRef .tc main_call0_v0)) (e4 : Fs 4 = W (Proc.devRef .tc main_v0)) :
    (StableHlo.held (c : Thread nD τ) (Pipeline.ucRefs τ sig) W : sProp 𝕄) ⊢ (D1 V c).arrays Fs := by
  rw [← Pipeline.unscopedBufs_held (Ix := Unit) (Name := ℕ) (U := UR sig nD τ) (Lvl := ℕ) c W, unscopedBufs_four, arrays1_eq h1, e0, e1, e2, e3, e4]
  iintro ⟨Ha0, Ha1, Hx, Hv⟩
  ihave Hx' := (pointsTo_share (PosShare.mem_left_op_right fullShare)).1 $$ Hx
  icases Hx' with ⟨Hl, Hr⟩
  isplitl [Ha1]; · iexact Ha1
  isplitl [Hl]; · iexact Hl
  isplitl [Ha0]; · iexact Ha0
  isplitl [Hr]; · iexact Hr
  iexact Hv

/-- EXIT of the second region: the halves joined again. -/
theorem exit1 (h1 : Data1 D1) (V : Contents F) (c : Dev nD) (W : Valuation τ sig (Elt F))
    (Fs : (w : Fin cfg1.W) → Buf (Elt F) ((cfg1.win w).arr.view.loc (c : Thread nD τ)))
    (e0 : Fs 0 = W (Proc.devRef .tc main_arg1)) (e1 : Fs 1 = W (Proc.devRef .tc main_call0_v0)) (e2 : Fs 2 = W (Proc.devRef .tc main_arg0))
    (e3 : Fs 3 = W (Proc.devRef .tc main_call0_v0)) (e4 : Fs 4 = W (Proc.devRef .tc main_v0)) :
    ((D1 V c).arrays Fs : sProp 𝕄) ⊢ StableHlo.held (c : Thread nD τ) (Pipeline.ucRefs τ sig) W := by
  rw [← Pipeline.unscopedBufs_held (Ix := Unit) (Name := ℕ) (U := UR sig nD τ) (Lvl := ℕ) c W, unscopedBufs_four, arrays1_eq h1, e0, e1, e2, e3, e4]
  iintro ⟨Ha1, Hl, Ha0, Hr, Hv⟩
  isplitl [Ha0]; · iexact Ha0
  isplitl [Ha1]; · iexact Ha1
  isplitl [Hl Hr]
  · iapply (pointsTo_share (PosShare.mem_left_op_right fullShare)).2
    isplitl [Hl]; · iexact Hl
    iexact Hr
  iexact Hv

/-! ## The second region over the thread state -/

/-- The last thread state: every unscoped buffer at the final contents, the generator register at some state. -/
abbrev Tₙ (c : Dev nD) : sProp 𝕄 := iprop(StableHlo.held (c : Thread nD τ) (Pipeline.ucRefs τ sig) (W2 D0 D1 m ρ c) ∗ ∃ r, prngReg c r)

variable (D0 D1) in
theorem W2_main_arg0 (c : Dev nD) : W2 D0 D1 m ρ c (Proc.devRef .tc main_arg0) = m ((c : Thread nD τ).loc main_arg0) :=
  (W2_of_ne D0 D1 m ρ c main_arg0 (by decide)).trans ((W1_of_ne D0 m ρ c main_arg0 (by decide)).trans rfl)
variable (D0 D1) in
theorem W2_main_arg1 (c : Dev nD) : W2 D0 D1 m ρ c (Proc.devRef .tc main_arg1) = m ((c : Thread nD τ).loc main_arg1) :=
  (W2_of_ne D0 D1 m ρ c main_arg1 (by decide)).trans ((W1_of_ne D0 m ρ c main_arg1 (by decide)).trans rfl)

set_option backward.isDefEq.respectTransparency.types false in
/-- The second region: entered from every unscoped buffer at the contents the first region left, the intermediate
    array's share dealt to its two readers; left with the halves joined and the result array at what the pipeline
    wrote back. -/
def reg1 (h1 : Data1 D1) : Pipeline.RegionSeg (pcfgs (F := F)) adm (pdats D0 D1 m ρ) () defs₀ 𝒱₀ L lv 1 where
  win := winFacts₀1
  block_pos := block_pos1
  stage_whole := stage_whole1
  K := PEmpty
  osem k := k.elim
  ho := Pipeline.OwnSemFacts.none _
  hbody c := (h1.hbody (V1 D0 m ρ) c).loose
  hwaits := Pipeline.hwaits_of_owed_zero _ _ _ _ L lv 1 fun c t => h1.howed (V1 D0 m ρ) c t
  pre c := iprop(StableHlo.held (c : Thread nD τ) (Pipeline.ucRefs τ sig) (W1 D0 m ρ c) ∗ R c)
  post c := iprop(Tₙ (D0 := D0) (D1 := D1) m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := entry1 h1 (V1 D0 m ρ) c (W1 D0 m ρ c) ((pdats D0 D1 m ρ 1 c).arrAt · 0)
      (h1.hA (V1 D0 m ρ) c 0) (h1.hA (V1 D0 m ρ) c 1) (h1.hA (V1 D0 m ρ) c 2) (h1.hA (V1 D0 m ρ) c 3) (h1.hA (V1 D0 m ρ) c 4)
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 m ρ 1 c).owed 0 = 0 from h1.howed _ c 0]
      icases HO with ⟨%W, HO⟩; iexists W; isplitr
      · ipureintro; exact fun x _ => Or.inl (by rw [show (pdats D0 D1 m ρ 1 c).recorded 0 = Set.univ from h1.hrec _ c 0]; trivial)
      iexact HO
    isplitl [Hp]; · iexact Hp
    iempintro
  hin c := by
    exact (show _ ⊢ (Pipeline.ΦA spec1 c : sProp 𝕄) from by
      unfold Pipeline.ΦA
      iintro ⟨Hp, -, Hr⟩
      isplitl [Hr]; · iexact Hr
      iexact Hp).trans (h1.hin (V1 D0 m ρ) c)
  hout c := by
    refine (h1.hout (V1 D0 m ρ) c).trans ?_
    rw [Pipeline.ownSems0_none]; unfold Pipeline.ΦA
    iintro ⟨Hr, Hp⟩
    isplitl [Hp]; · iexact Hp
    isplitr; · iempintro
    iexact Hr
  hexit c := by
    have hjoin := exit1 h1 (V1 D0 m ρ) c (W2 D0 D1 m ρ c) ((pdats D0 D1 m ρ 1 c).arrAt · cfg1.N)
      ((((D1 (V1 D0 m ρ) c).arrAt_in 0 rfl _).trans (h1.hA (V1 D0 m ρ) c 0)).trans (W2_of_ne D0 D1 m ρ c main_arg1 (by decide)).symm)
      ((((D1 (V1 D0 m ρ) c).arrAt_in 1 rfl _).trans (h1.hA (V1 D0 m ρ) c 1)).trans (W2_of_ne D0 D1 m ρ c main_call0_v0 (by decide)).symm)
      ((((D1 (V1 D0 m ρ) c).arrAt_in 2 rfl _).trans (h1.hA (V1 D0 m ρ) c 2)).trans (W2_of_ne D0 D1 m ρ c main_arg0 (by decide)).symm)
      ((((D1 (V1 D0 m ρ) c).arrAt_in 3 rfl _).trans (h1.hA (V1 D0 m ρ) c 3)).trans (W2_of_ne D0 D1 m ρ c main_call0_v0 (by decide)).symm)
      (W2_out D0 D1 m ρ c).symm
    iintro ⟨Ha, HO, HY, -⟩
    imodintro
    isplitl [Ha HY]
    · isplitl [Ha]
      · iapply hjoin; iexact Ha
      iexact HY
    unfold Pipeline.Dat.owesAt Pipeline.owesWithin
    rw [show (pdats D0 D1 m ρ 1 c).owed (Fin.last _) = 0 from h1.howed _ c _]
    icases HO with ⟨%W, -, HO⟩; iexists W; iexact HO

/-! ## The program as its two regions, and its run -/

abbrev segs (h0 : Data0 D0) (h1 : Data1 D1) : List (Pipeline.Seg (pcfgs (F := F)) adm (pdats D0 D1 m ρ) () defs₀ 𝒱₀ L lv) :=
  [ .region (reg0 (D0 := D0) (D1 := D1) m ρ h0),
    .region (reg1 (D0 := D0) (D1 := D1) m ρ h1) ]

theorem main_run (h0 : Data0 D0) (h1 : Data1 D1) (c : Dev nD) : main (F := F) c = Pipeline.Seg.run (segs m ρ h0 h1) :=
  (main_chain c).trans (by chain_rfl)

set_option backward.isDefEq.respectTransparency.types false in
/-- THE RUN. From any memory with zero counters every weakly fair execution of the program terminates, nothing
    faulting, with the result array at what the second pipeline's write-backs leave and the arguments as launched. -/
theorem run (h0 : Data0 D0) (h1 : Data1 D1) :
    θ_run defs (onTc (τ := τ) (main (F := F))) ⟨m, fun _ => 0, ρ⟩ (fun r => ∀ c : Dev nD,
      r.2.mem ((c.tc : Thread nD τ).loc main_v0) = W2 D0 D1 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats D0 D1 m ρ) () cellOf_inj emb₁ defs₀ 𝒱₀ L lv m ρ main (segs m ρ h0 h1)
    (fun c Q => by rw [main_run m ρ h0 h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ (D0 := D0) (D1 := D1) m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 D0 D1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 D0 D1 m ρ c) s')
      isplitl [Hh] <;> iassumption)
    (hQ := fun s h c =>
      ⟨h c _ (mem_uc main_v0 (by decide)),
       (h c _ (mem_uc main_arg0 (by decide))).trans (W2_main_arg0 D0 D1 m ρ c),
       (h c _ (mem_uc main_arg1 (by decide))).trans (W2_main_arg1 D0 D1 m ρ c)⟩)

/-- What the first region left in the intermediate array, and the arguments as launched, as the second region finds them. -/
theorem V1_mid (c : Dev nD) : V1 D0 m ρ c main_call0_v0 = (D0 (V0 m ρ) c).arrAt 2 cfg0.N := W1_out D0 m ρ c
theorem V1_arg0 (c : Dev nD) : V1 D0 m ρ c main_arg0 = m ((c : Thread nD τ).loc main_arg0) :=
  (W1_of_ne D0 m ρ c main_arg0 (by decide)).trans rfl
theorem V1_arg1 (c : Dev nD) : V1 D0 m ρ c main_arg1 = m ((c : Thread nD τ).loc main_arg1) :=
  (W1_of_ne D0 m ρ c main_arg1 (by decide)).trans rfl

end Cert.ReferenceIdeal.Regions

end
-- ==== Proof.RefRuns0.lean ====
import proofs.«148489_g2000000462589658_pallasbulk_581_2_alg».proof.Proof.Gen.ReferenceIdeal.Launch
import proofs.«148489_g2000000462589658_pallasbulk_581_2_alg».proof.Proof.Gen.ReferenceIdeal.Skeleton
import proofs.«148489_g2000000462589658_pallasbulk_581_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

/-!
# The first product's accumulation: what the three cases of a grid point share

The first call of the tiled program visits the 16 × 16 tiles `(i, k)` of the square matrix row-tile by row-tile.
At a point it multiplies the `256 × 256` tile `(i, k)` of the matrix with tile `k` of the feature rows and adds the
product to a `256 × 256` accumulator that lives beside the windows; the accumulator is set to zero first when
`k = 0`, and is copied into the output tile `i` when `k = 15`.  So a point is in one of three cases: the start of
a row of tiles (`k = 0`), its middle (`0 < k < 15`), its end (`k = 15`).

This module states the two conditions in closed form over the linear point number `t = 16 i + k`, where the output
window is idle, and the shape of the invariant: of the twelve buffers the call does not stage, the accumulator is
the one whose contents are tracked from point to point; the other eleven are owned at unnamed contents.
-/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' tiles -/

/-- Window `w`'s tile at point `t`, read off its array as the call finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window's current buffer holds its tile at every point, for any proof data over the entry contents
    whose body leaves the tile in place: the window is fetched at every point, uncut and never idle. -/
theorem holds0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The same for the feature window. -/
theorem holds0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

end

/-! ## The two conditions of the body, in closed form -/

/-- The body zeroes the accumulator first: the tile is the first of its row (`k = 0`). -/
abbrev rowStart (i : grid0.Coords) : Prop := (Scalar.cmpi .ne (Scalar.extui (Scalar.cmpi .eq (BitVec.ofNat 32 (i 1).val) 0#32)) 0#32) = 1#1
/-- That is at the points `t ≡ 0 (mod 16)`. -/
theorem rowStart_iff : ∀ t : Fin cfg0.N, rowStart (grid0.coords t) ↔ t.val % 16 = 0 :=
  (by decide +kernel : ∀ t : Fin grid0.N, rowStart (grid0.coords t) ↔ t.val % 16 = 0)

/-- The body copies the accumulator out: the tile is the last of its row (`k = 15`). -/
abbrev rowEnd (i : grid0.Coords) : Prop := k0_cond2 i = 1#1
/-- That is at the points `t ≡ 15 (mod 16)`. -/
theorem rowEnd_iff : ∀ t : Fin cfg0.N, rowEnd (grid0.coords t) ↔ t.val % 16 = 15 :=
  (by decide +kernel : ∀ t : Fin grid0.N, rowEnd (grid0.coords t) ↔ t.val % 16 = 15)

/-! ## Where the windows are idle -/

/-- The two input windows are never idle. -/
theorem live0_0 : ∀ t : Fin cfg0.N, cfg0.idle 0 (grid0.coords t) = false := by decide +kernel
theorem live0_1 : ∀ t : Fin cfg0.N, cfg0.idle 1 (grid0.coords t) = false := by decide +kernel
/-- Away from a row's end the output window is idle (the body stores nothing into it), -/
theorem idle0_2 : ∀ t : Fin cfg0.N, ¬rowEnd (grid0.coords t) → cfg0.idle 2 (grid0.coords t) = true := by decide +kernel
/-- and is not written back; -/
theorem keep0_2 : ∀ t : Fin cfg0.N, ¬rowEnd (grid0.coords t) → (cfg0.win 2).flush t = false := by decide +kernel
/-- at a row's end it is live. -/
theorem live0_2 : ∀ t : Fin cfg0.N, rowEnd (grid0.coords t) → cfg0.idle 2 (grid0.coords t) = false := by decide +kernel

/-! ## The memrefs the body is called with -/

/-- Each window's current staging memref at point `t`, as the call passes it, and its wholeness. -/
abbrev mA (t : Fin cfg0.N) : Memref sig .tc .vmem S256x256 .f32 := win0_0.stage (cfg0.slots t 0)
abbrev hA (t : Fin cfg0.N) : (mA t).IsWhole := hstage0_0 ((cfg0.slots t 0).cast nbuf0_0)
abbrev mX (t : Fin cfg0.N) : Memref sig .tc .vmem S256x256 .f32 := win0_1.stage (cfg0.slots t 1)
abbrev hX (t : Fin cfg0.N) : (mX t).IsWhole := hstage0_1 ((cfg0.slots t 1).cast nbuf0_1)
abbrev mO (t : Fin cfg0.N) : Memref sig .tc .vmem S256x256 .f32 := win0_2.stage (cfg0.slots t 2)
abbrev hO (t : Fin cfg0.N) : (mO t).IsWhole := hstage0_2 ((cfg0.slots t 2).cast nbuf0_2)
/-- The accumulator: a whole buffer of the call's own, passed beside the windows. -/
abbrev mAcc : Memref sig .tc .vmem S256x256 .f32 := Memref.whole cc0_scratch0
/-- The accumulator and one output staging buffer as views: contents are stated through them. -/
abbrev vAcc : View sig .tc .vmem S256x256 .f32 := mAcc.view
abbrev vOut : View sig .tc .vmem S256x256 .f32 := (Memref.whole cc0_stg2_0 : Memref sig .tc .vmem S256x256 .f32).view

/-! ## The invariant between points -/

/-- The eleven buffers of the core that this call neither stages nor accumulates in (they belong to the second
    call), each owned whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the call and takes back: the accumulator owned at some contents, the other eleven
    buffers, and the generator register at some state. -/
theorem PhiA_split (c : Dev nD) :
    (Pipeline.ΦA spec0 c : sProp 𝕄)
      = iprop(iprop((∃ d, owns (c : Thread nD τ) mAcc fullShare d) ∗ others (F := F) c) ∗ (∃ r, prngReg c r)) := by
  unfold Pipeline.ΦA others; rw [scopedRest0_eq]; simp only [mAcc, owns_whole]; try rfl

end Cert.ReferenceIdeal.Hand

end
-- ==== Proof.RefRunStart0.lean ====
import proofs.«148489_g2000000462589658_pallasbulk_581_2_alg».proof.Proof.RefRuns0

/-!
# The body at the start of a row of tiles

At `k = 0` the body stores the zero tile into the accumulator, then adds the product of the two input tiles to it;
the output tile is left as it was found.  The accumulator may hold anything before.
The triple is found by symbolic execution of the body's memory operations; the pieces the accumulator (and, at a
row's end, the output tile) ends with are its witness.
-/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a row's start, on whole memrefs — the inputs' at `x0`, `x1`, the output's at any `xo` handed back untouched,
    the accumulator's at anything — the body runs to the continuation with the accumulator's pieces `LS` written. -/
noncomputable def runStart (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : rowStart i) (hc1 : ¬rowEnd i)
    (x0 x1 : Vec F S256x256 .f32) :
    { LS : List (View.Piece (Elt F) S256x256 .f32) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__prop_kernel i arg2 harg2 arg3 harg3 arg4 harg4 arg5 harg5) K } := by
  refine ⟨?_, fun xo E K => ?run⟩
  case run =>
    simp only [cc0__prop_kernel_eq_skeleton]; unfold cc0__prop_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.ReferenceIdeal.Hand

end
-- ==== Proof.RefRunMid0.lean ====
import proofs.«148489_g2000000462589658_pallasbulk_581_2_alg».proof.Proof.RefRuns0

/-!
# The body at the middle of a row of tiles

At `0 < k < 15` the body adds the product of the two input tiles to the accumulator, which holds what the point
before left; the output tile is left as it was found.
The triple is found by symbolic execution of the body's memory operations; the pieces the accumulator (and, at a
row's end, the output tile) ends with are its witness.
-/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- In a row's middle, on whole memrefs — the inputs' at `x0`, `x1`, the output's at any `xo` handed back untouched,
    the accumulator's at `acc` — the body runs to the continuation with the accumulator's pieces `LS` written. -/
noncomputable def runMid (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : ¬rowEnd i)
    (x0 x1 acc : Vec F S256x256 .f32) :
    { LS : List (View.Piece (Elt F) S256x256 .f32) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare acc
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__prop_kernel i arg2 harg2 arg3 harg3 arg4 harg4 arg5 harg5) K } := by
  refine ⟨?_, fun xo E K => ?run⟩
  case run =>
    simp only [cc0__prop_kernel_eq_skeleton]; unfold cc0__prop_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.ReferenceIdeal.Hand

end
-- ==== Proof.RefRunEnd0.lean ====
import proofs.«148489_g2000000462589658_pallasbulk_581_2_alg».proof.Proof.RefRuns0

/-!
# The body at the end of a row of tiles

At `k = 15` the body adds the product of the two input tiles to the accumulator, which holds what the point before
left, and then stores the accumulator into the output tile, whatever that held.
The triple is found by symbolic execution of the body's memory operations; the pieces the accumulator (and, at a
row's end, the output tile) ends with are its witness.
-/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a row's end, on whole memrefs — the inputs' at `x0`, `x1`, the output's at anything, the accumulator's at
    `acc` — the body runs to the continuation with the output's pieces `LO` and the accumulator's pieces `LS` written. -/
noncomputable def runEnd (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : rowEnd i)
    (x0 x1 acc : Vec F S256x256 .f32) :
    Σ' (LO : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare acc
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__prop_kernel i arg2 harg2 arg3 harg3 arg4 harg4 arg5 harg5) K } := by
  refine ⟨?_, ?_, fun E K => ?run⟩
  case run =>
    simp only [cc0__prop_kernel_eq_skeleton]; unfold cc0__prop_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.ReferenceIdeal.Hand

end
-- ==== Proof.RefFrame0.lean ====
import proofs.«148489_g2000000462589658_pallasbulk_581_2_alg».proof.Proof.RefRunStart0
import proofs.«148489_g2000000462589658_pallasbulk_581_2_alg».proof.Proof.RefRunMid0
import proofs.«148489_g2000000462589658_pallasbulk_581_2_alg».proof.Proof.RefRunEnd0

/-!
# The first product's accumulation, point by point: the proof data of the first call

What the accumulator holds after each of the 256 points is defined by recursion on the point: at a row's start the
body's result on the point's two tiles, elsewhere its result on the two tiles and what the point before left.  The
invariant between points owns the accumulator at exactly these contents (before the first point: at anything), and
the output window's staging buffer is named only at a row's end, where the accumulator is copied into it and the
tile is written back.  With this the body's triple, case by case, is the obligation the pipeline's rule asks for.
-/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A row's start: the accumulator's pieces cover it, -/
theorem coverStart (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : rowStart i) (hc1 : ¬rowEnd i)
    (x0 x1 : Vec F S256x256 .f32) (y : S256x256.Idx) :
    ∃ pc ∈ (runStart c i arg2 harg2 arg3 harg3 arg4 harg4 arg5 harg5 hc0 hc1 x0 x1).1, y ∈ pc.1.set :=
  View.cover_of_tiledL (runStart c i arg2 harg2 arg3 harg3 arg4 harg4 arg5 harg5 hc0 hc1 x0 x1).1 S256x256.size (by sl_kernel_rfl) y

/-- and it ends holding them read back. -/
def accStart (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : rowStart i) (hc1 : ¬rowEnd i)
    (x0 x1 : Vec F S256x256 .f32) : Vec F S256x256 .f32 :=
  vAcc.read (Elt F) (vAcc.writes (Elt F) vAcc.junk (runStart c i arg2 harg2 arg3 harg3 arg4 harg4 arg5 harg5 hc0 hc1 x0 x1).1)

/-- A row's middle: the accumulator's pieces cover it, -/
theorem coverMid (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : ¬rowEnd i)
    (x0 x1 acc : Vec F S256x256 .f32) (y : S256x256.Idx) :
    ∃ pc ∈ (runMid c i arg2 harg2 arg3 harg3 arg4 harg4 arg5 harg5 hc0 hc1 x0 x1 acc).1, y ∈ pc.1.set :=
  View.cover_of_tiledL (runMid c i arg2 harg2 arg3 harg3 arg4 harg4 arg5 harg5 hc0 hc1 x0 x1 acc).1 S256x256.size (by sl_kernel_rfl) y

/-- and it ends holding them read back. -/
def accMid (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : ¬rowEnd i)
    (x0 x1 acc : Vec F S256x256 .f32) : Vec F S256x256 .f32 :=
  vAcc.read (Elt F) (vAcc.writes (Elt F) vAcc.junk (runMid c i arg2 harg2 arg3 harg3 arg4 harg4 arg5 harg5 hc0 hc1 x0 x1 acc).1)

/-- A row's end: the accumulator's pieces cover it, -/
theorem coverEnd (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : rowEnd i)
    (x0 x1 acc : Vec F S256x256 .f32) (y : S256x256.Idx) :
    ∃ pc ∈ (runEnd c i arg2 harg2 arg3 harg3 arg4 harg4 arg5 harg5 hc0 hc1 x0 x1 acc).2.1, y ∈ pc.1.set :=
  View.cover_of_tiledL (runEnd c i arg2 harg2 arg3 harg3 arg4 harg4 arg5 harg5 hc0 hc1 x0 x1 acc).2.1 S256x256.size (by sl_kernel_rfl) y

/-- and it ends holding them read back; -/
def accEnd (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : rowEnd i)
    (x0 x1 acc : Vec F S256x256 .f32) : Vec F S256x256 .f32 :=
  vAcc.read (Elt F) (vAcc.writes (Elt F) vAcc.junk (runEnd c i arg2 harg2 arg3 harg3 arg4 harg4 arg5 harg5 hc0 hc1 x0 x1 acc).2.1)

/-- the output tile's pieces cover it, -/
theorem coverOut (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : rowEnd i)
    (x0 x1 acc : Vec F S256x256 .f32) (y : S256x256.Idx) :
    ∃ pc ∈ (runEnd c i arg2 harg2 arg3 harg3 arg4 harg4 arg5 harg5 hc0 hc1 x0 x1 acc).1, y ∈ pc.1.set :=
  View.cover_of_tiledL (runEnd c i arg2 harg2 arg3 harg3 arg4 harg4 arg5 harg5 hc0 hc1 x0 x1 acc).1 S256x256.size (by sl_kernel_rfl) y

/-- and it ends holding them read back. -/
def outEnd (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : rowEnd i)
    (x0 x1 acc : Vec F S256x256 .f32) : Vec F S256x256 .f32 :=
  vOut.read (Elt F) (vOut.writes (Elt F) vOut.junk (runEnd c i arg2 harg2 arg3 harg3 arg4 harg4 arg5 harg5 hc0 hc1 x0 x1 acc).1)

section
variable (V : (c : Dev nD) → (b : Ref sig .tc) → Buf (Elt F) ((c : Thread nD τ).loc b))

/-! ## The accumulator after each point -/

/-- What the accumulator holds after the body at position `n`: the case of the point, run at the point's memrefs
    and tiles, over what position `n - 1` left. -/
def accAt (c : Dev nD) : (n : ℕ) → n < cfg0.N → Vec F S256x256 .f32
  | 0, hn => accStart c (grid0.coords ⟨0, hn⟩) (mA ⟨0, hn⟩) (hA ⟨0, hn⟩) (mX ⟨0, hn⟩) (hX ⟨0, hn⟩) (mO ⟨0, hn⟩) (hO ⟨0, hn⟩) mAcc (Memref.isWhole_whole _) ((rowStart_iff ⟨0, hn⟩).mpr (Nat.zero_mod _)) (fun h => (fun h => by (try dsimp only at h); omega) ((rowEnd_iff ⟨0, hn⟩).mp h)) (tile0 V c 0 ⟨0, hn⟩) (tile0 V c 1 ⟨0, hn⟩)
  | n + 1, hn =>
    if h0 : (n + 1) % 16 = 0 then
      if h1 : (n + 1) % 16 = 15 then
        False.elim (by omega)
      else
        accStart c (grid0.coords ⟨n + 1, hn⟩) (mA ⟨n + 1, hn⟩) (hA ⟨n + 1, hn⟩) (mX ⟨n + 1, hn⟩) (hX ⟨n + 1, hn⟩) (mO ⟨n + 1, hn⟩) (hO ⟨n + 1, hn⟩) mAcc (Memref.isWhole_whole _) ((rowStart_iff ⟨n + 1, hn⟩).mpr h0) (fun h => h1 ((rowEnd_iff ⟨n + 1, hn⟩).mp h)) (tile0 V c 0 ⟨n + 1, hn⟩) (tile0 V c 1 ⟨n + 1, hn⟩)
    else
      if h1 : (n + 1) % 16 = 15 then
        accEnd c (grid0.coords ⟨n + 1, hn⟩) (mA ⟨n + 1, hn⟩) (hA ⟨n + 1, hn⟩) (mX ⟨n + 1, hn⟩) (hX ⟨n + 1, hn⟩) (mO ⟨n + 1, hn⟩) (hO ⟨n + 1, hn⟩) mAcc (Memref.isWhole_whole _) (fun h => h0 ((rowStart_iff ⟨n + 1, hn⟩).mp h)) ((rowEnd_iff ⟨n + 1, hn⟩).mpr h1) (tile0 V c 0 ⟨n + 1, hn⟩) (tile0 V c 1 ⟨n + 1, hn⟩) (accAt c n (Nat.lt_of_succ_lt hn))
      else
        accMid c (grid0.coords ⟨n + 1, hn⟩) (mA ⟨n + 1, hn⟩) (hA ⟨n + 1, hn⟩) (mX ⟨n + 1, hn⟩) (hX ⟨n + 1, hn⟩) (mO ⟨n + 1, hn⟩) (hO ⟨n + 1, hn⟩) mAcc (Memref.isWhole_whole _) (fun h => h0 ((rowStart_iff ⟨n + 1, hn⟩).mp h)) (fun h => h1 ((rowEnd_iff ⟨n + 1, hn⟩).mp h)) (tile0 V c 0 ⟨n + 1, hn⟩) (tile0 V c 1 ⟨n + 1, hn⟩) (accAt c n (Nat.lt_of_succ_lt hn))

/-- At a row's start: that case's contents. -/
theorem accAt_start (c : Dev nD) (t : Fin cfg0.N) (h0 : t.val % 16 = 0) (h1 : ¬t.val % 16 = 15) :
    accAt V c t.val t.isLt = accStart c (grid0.coords t) (mA t) (hA t) (mX t) (hX t) (mO t) (hO t) mAcc (Memref.isWhole_whole _) ((rowStart_iff t).mpr h0) (fun h => h1 ((rowEnd_iff t).mp h)) (tile0 V c 0 t) (tile0 V c 1 t) := by
  obtain ⟨n, hn⟩ := t
  cases n with
  | zero => exact rfl
  | succ n => exact (dif_pos h0).trans ((dif_neg h1).trans rfl)

/-- In a row's middle: that case's contents, over what the point before left. -/
theorem accAt_mid (c : Dev nD) (t : Fin cfg0.N) (h0 : ¬t.val % 16 = 0) (h1 : ¬t.val % 16 = 15) :
    accAt V c t.val t.isLt = accMid c (grid0.coords t) (mA t) (hA t) (mX t) (hX t) (mO t) (hO t) mAcc (Memref.isWhole_whole _) (fun h => h0 ((rowStart_iff t).mp h)) (fun h => h1 ((rowEnd_iff t).mp h)) (tile0 V c 0 t) (tile0 V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a row's end: that case's contents, over what the point before left. -/
theorem accAt_end (c : Dev nD) (t : Fin cfg0.N) (h0 : ¬t.val % 16 = 0) (h1 : t.val % 16 = 15) :
    accAt V c t.val t.isLt = accEnd c (grid0.coords t) (mA t) (hA t) (mX t) (hX t) (mO t) (hO t) mAcc (Memref.isWhole_whole _) (fun h => h0 ((rowStart_iff t).mp h)) ((rowEnd_iff t).mpr h1) (tile0 V c 0 t) (tile0 V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a row's end the copy of the
    accumulator; elsewhere the body stores nothing there and nothing reads this value. -/
def outAt (c : Dev nD) (t : Fin cfg0.N) : Vec F S256x256 .f32 :=
  if h1 : t.val % 16 = 15 then
    outEnd c (grid0.coords t) (mA t) (hA t) (mX t) (hX t) (mO t) (hO t) mAcc (Memref.isWhole_whole _) (fun h => (fun h0 : t.val % 16 = 0 => by omega) ((rowStart_iff t).mp h)) ((rowEnd_iff t).mpr h1) (tile0 V c 0 t) (tile0 V c 1 t) (accAt V c (t.val - 1) (Nat.lt_of_le_of_lt (Nat.sub_le _ _) t.isLt))
  else vOut.read (Elt F) vOut.junk

theorem outAt_end (c : Dev nD) (t : Fin cfg0.N) (h0 : ¬t.val % 16 = 0) (h1 : t.val % 16 = 15) :
    outAt V c t = outEnd c (grid0.coords t) (mA t) (hA t) (mX t) (hX t) (mO t) (hO t) mAcc (Memref.isWhole_whole _) (fun h => h0 ((rowStart_iff t).mp h)) ((rowEnd_iff t).mpr h1) (tile0 V c 0 t) (tile0 V c 1 t) (accAt V c (t.val - 1) (Nat.lt_of_le_of_lt (Nat.sub_le _ _) t.isLt)) := by
  unfold outAt; exact dif_pos h1

/-! ## The invariant between points -/

/-- Before position `n`: before the first point what the launch hands over (the accumulator at anything);
    afterwards the accumulator at what the point before left, the other buffers and the generator register as ever. -/
def PhiAcc (c : Dev nD) : (n : ℕ) → n ≤ cfg0.N → sProp 𝕄
  | 0, _ => Pipeline.ΦA spec0 c
  | n + 1, hn => iprop(iprop(owns (c : Thread nD τ) mAcc fullShare (accAt V c n hn) ∗ others (F := F) c) ∗ (∃ r, prngReg c r))

theorem PhiAcc_zero (c : Dev nD) (n : ℕ) (h : n ≤ cfg0.N) (hz : n = 0) : PhiAcc V c n h = Pipeline.ΦA spec0 c := by
  subst hz; rfl

theorem PhiAcc_succ (c : Dev nD) (n : ℕ) (hn : n < cfg0.N) :
    PhiAcc V c (n + 1) hn = iprop(iprop(owns (c : Thread nD τ) mAcc fullShare (accAt V c n hn) ∗ others (F := F) c) ∗ (∃ r, prngReg c r)) := rfl

theorem PhiAcc_pos (c : Dev nD) (n : ℕ) (h : n ≤ cfg0.N) (hz : n ≠ 0) :
    PhiAcc V c n h = iprop(iprop(owns (c : Thread nD τ) mAcc fullShare (accAt V c (n - 1) (by omega)) ∗ others (F := F) c) ∗ (∃ r, prngReg c r)) := by
  cases n with
  | zero => exact absurd rfl hz
  | succ n => rfl

/-! ## The proof data -/

/-- The proof data of the first call on core `c`: the arrays as the call finds them; after the body at point `t`
    each input's buffer at its tile and the output's at `outAt`; the invariant `PhiAcc`; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => outAt V c t
  Φ t := PhiAcc V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := rfl
theorem owed_eq0 (c : Dev nD) (t : Fin (cfg0.N + 1)) : (dat0 V c).owed t = 0 := rfl

/-- The invariant at a point's start, restated at the point's number. -/
theorem Phi_castSucc (c : Dev nD) (t : Fin cfg0.N) :
    (dat0 V c).Φ t.castSucc = PhiAcc V c t.val (Nat.le_of_lt t.isLt) := by
  dsimp only [dat0]; simp only [Fin.coe_castSucc]

/-- What the body leaves, window by window. -/
theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = outAt V c t := by dsimp only [dat0]

/-- Each input's current staging buffer holds its tile at every point. -/
theorem holds0_0 (c : Dev nD) (t : Fin cfg0.N) (d) : (dat0 V c).before 0 t d = tile0 V c 0 t :=
  holds0_0_of V (dat0 V c) (A_eq0 V c 0) (after0_0 V c) t d
theorem holds0_1 (c : Dev nD) (t : Fin cfg0.N) (d) : (dat0 V c).before 1 t d = tile0 V c 1 t :=
  holds0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (mA t) fullShare ((dat0 V c).before 0 t d))
    ∗ (∃ d, owns (c : Thread nD τ) (mX t) fullShare ((dat0 V c).before 1 t d))
    ∗ (∃ d, owns (c : Thread nD τ) (mO t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their tiles; the closed forms say which case the point is in; the
    invariant hands the body the accumulator at what the point before left (at anything before the first point) and
    takes it back at this point's contents; away from a row's end the output's buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [holds0_0, holds0_1]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (mA t) fullShare ((dat0 V c).after 0 t) from by
    unfold Dat.leavesExact; rw [live0_0 t], after0_0]
  rw [show (dat0 V c).leavesExact 1 t = owns (c : Thread nD τ) (mX t) fullShare ((dat0 V c).after 1 t) from by
    unfold Dat.leavesExact; rw [live0_1 t], after0_1]
  have hN : t.val < 256 := lt_of_lt_of_eq t.isLt (show cfg0.N = 256 from N_0)
  by_cases h1 : t.val % 16 = 15
  · have h0 : ¬t.val % 16 = 0 := by omega
    have hz : t.val ≠ 0 := by omega
    rw [show (dat0 V c).leavesExact 2 t = owns (c : Thread nD τ) (mO t) fullShare ((dat0 V c).after 2 t) from by
      unfold Dat.leavesExact; rw [live0_2 t ((rowEnd_iff t).mpr h1)], after0_2]
    rw [outAt_end V c t h0 h1, accAt_end V c t h0 h1]
    unfold outEnd accEnd; (try dsimp only)
    rw [Phi_castSucc V c t, PhiAcc_pos V c _ _ hz]
    iintro ⟨⟨⟨HS, Hr⟩, Hg⟩, Ho, ⟨%d0, H0⟩, ⟨%d1, H1⟩, ⟨%d2, H2⟩⟩
    iapply ((runEnd c (grid0.coords t) _ _ _ _ _ _ _ _ (fun h => h0 ((rowStart_iff t).mp h)) ((rowEnd_iff t).mpr h1) (tile0 V c 0 t) (tile0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitl [HS Hr]
      · isplitl [HS]
        · unfold owns; iexists _; isplitr
          swap; · iexact HS
          ipureintro; exact View.read_writes_of_cover _ _ _ _ _ (coverEnd c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (coverOut c _ _ _ _ _ _ _ _ _ _ _ _ _ _)
  · rw [Dat.leavesExact_idle (dat0 V c) 2 t (idle0_2 t (fun h => h1 ((rowEnd_iff t).mp h))) (keep0_2 t (fun h => h1 ((rowEnd_iff t).mp h)))]
    by_cases h0 : t.val % 16 = 0
    · rw [accAt_start V c t h0 h1]
      unfold accStart; (try dsimp only)
      by_cases hz : t.val = 0
      · rw [Phi_castSucc V c t, PhiAcc_zero V c _ _ hz, PhiA_split]
        iintro ⟨⟨⟨HS, Hr⟩, Hg⟩, Ho, ⟨%d0, H0⟩, ⟨%d1, H1⟩, ⟨%d2, H2⟩⟩
        iapply ((runStart c (grid0.coords t) _ _ _ _ _ _ _ _ ((rowStart_iff t).mpr h0) (fun h => h1 ((rowEnd_iff t).mp h)) (tile0 V c 0 t) (tile0 V c 1 t)).2 _ Set.univ _)
        isplitl [H0]; · iexact H0
        isplitl [H1]; · iexact H1
        isplitl [H2]; · iexact H2
        isplitl [HS]; · iexact HS
        iintro ⟨H0, H1, H2, ⟨%es, HS⟩⟩
        isplitl [HS Hr Hg]
        · isplitl [HS Hr]
          · isplitl [HS]
            · unfold owns; iexists _; isplitr
              swap; · iexact HS
              ipureintro; exact View.read_writes_of_cover _ _ _ _ _ (coverStart c _ _ _ _ _ _ _ _ _ _ _ _ _)
            iexact Hr
          iexact Hg
        isplitl [Ho]; · iexact Ho
        isplitl [H0]; · iexact H0
        isplitl [H1]; · iexact H1
        iexists _; iexact H2
      · rw [Phi_castSucc V c t, PhiAcc_pos V c _ _ hz]
        iintro ⟨⟨⟨HS, Hr⟩, Hg⟩, Ho, ⟨%d0, H0⟩, ⟨%d1, H1⟩, ⟨%d2, H2⟩⟩
        iapply ((runStart c (grid0.coords t) _ _ _ _ _ _ _ _ ((rowStart_iff t).mpr h0) (fun h => h1 ((rowEnd_iff t).mp h)) (tile0 V c 0 t) (tile0 V c 1 t)).2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hr Hg]
        · isplitl [HS Hr]
          · isplitl [HS]
            · unfold owns; iexists _; isplitr
              swap; · iexact HS
              ipureintro; exact View.read_writes_of_cover _ _ _ _ _ (coverStart c _ _ _ _ _ _ _ _ _ _ _ _ _)
            iexact Hr
          iexact Hg
        isplitl [Ho]; · iexact Ho
        isplitl [H0]; · iexact H0
        isplitl [H1]; · iexact H1
        iexists _; iexact H2
    · have hz : t.val ≠ 0 := fun e => h0 (by rw [e])
      rw [accAt_mid V c t h0 h1]
      unfold accMid; (try dsimp only)
      rw [Phi_castSucc V c t, PhiAcc_pos V c _ _ hz]
      iintro ⟨⟨⟨HS, Hr⟩, Hg⟩, Ho, ⟨%d0, H0⟩, ⟨%d1, H1⟩, ⟨%d2, H2⟩⟩
      iapply ((runMid c (grid0.coords t) _ _ _ _ _ _ _ _ (fun h => h0 ((rowStart_iff t).mp h)) (fun h => h1 ((rowEnd_iff t).mp h)) (tile0 V c 0 t) (tile0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (coverMid c _ _ _ _ _ _ _ _ _ _ _ _ _ _)
          iexact Hr
        iexact Hg
      isplitl [Ho]; · iexact Ho
      isplitl [H0]; · iexact H0
      isplitl [H1]; · iexact H1
      iexists _; iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]
  try exact Idealize.SL.BI.Entails.refl _

/-- After any point the invariant gives it back: the accumulator's named contents are forgotten. -/
theorem Phi_forget (c : Dev nD) (t : Fin (cfg0.N + 1)) (ht : t.val ≠ 0) : (dat0 V c).Φ t ⊢ Pipeline.ΦA spec0 c := by
  rw [show (dat0 V c).Φ t = PhiAcc V c t.val (Nat.le_of_lt_succ t.isLt) from rfl, PhiAcc_pos V c _ _ ht, PhiA_split]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_forget V c _ (by rw [Fin.val_last]; have : cfg0.N = 256 := N_0; omega)

end

end Cert.ReferenceIdeal.Hand

end
-- ==== Proof.RefRuns1.lean ====
/- The second region of the reference program (the tiled product accumulated over the K axis, then
   the three panels written out): what its three control cases share. The window blocks read off the
   region-entry contents, the two branch conditions in closed form over the 256 grid points (the
   accumulator is reset where k = 0 and the output block is written where k = 15), where the output
   window is idle, and the region invariant split into the carried accumulator and the seven scoped
   buffers the region never touches. -/
import proofs.«148489_g2000000462589658_pallasbulk_581_2_alg».proof.Proof.Gen.ReferenceIdeal.Launch
import proofs.«148489_g2000000462589658_pallasbulk_581_2_alg».proof.Proof.Gen.ReferenceIdeal.Skeleton
import proofs.«148489_g2000000462589658_pallasbulk_581_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block of the entry contents at every point, whether or not the pipeline fetched it
    there: where it is not fetched the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block of the entry contents at every point, whether or not the pipeline fetched it
    there: where it is not fetched the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block of the entry contents at every point, whether or not the pipeline fetched it
    there: where it is not fetched the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block of the entry contents at every point, whether or not the pipeline fetched it
    there: where it is not fetched the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions, in closed form -/

/-- The accumulator is reset: the grid's second coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The output block is written: the grid's second coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from k = 15 nothing is stored into the output block and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At k = 15 the output block is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S256x768 .f32 := (Memref.whole cc1_stg4_0 : Memref sig .tc .vmem S256x768 .f32).view
abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x768 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1 : Memref sig .tc .vmem S256x256 .f32 := Memref.whole cc1_scratch0
abbrev VS1 : View sig .tc .vmem S256x256 .f32 := scM1.view

/-! ## The region invariant, the accumulator split off -/

/-- The seven scoped buffers that are neither a staging buffer of this region nor its accumulator, each at
    some contents: the region never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The class invariant hands out the accumulator at some contents, beside the untouched buffers and the
    generator register. -/
theorem PhiA1_elim (c : Dev nD) :
    (Pipeline.ΦA spec1 c : sProp 𝕄) ⊢ iprop(others1 c ∗ (∃ d, owns (c : Thread nD τ) scM1 fullShare d) ∗ (∃ r, prngReg c r)) := by
  unfold Pipeline.ΦA others1; rw [scopedRest1_eq]; simp only [scM1, owns_whole]
  iintro ⟨⟨H0, H1, H2, H3, H4, H5, H6, HS⟩, Hg⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HS]; · iexact HS
  iexact Hg

/-- And takes it back at any contents. -/
theorem PhiA1_intro (c : Dev nD) :
    iprop(others1 c ∗ (∃ d, owns (c : Thread nD τ) scM1 fullShare d) ∗ (∃ r, prngReg c r)) ⊢ (Pipeline.ΦA spec1 c : sProp 𝕄) := by
  unfold Pipeline.ΦA others1; rw [scopedRest1_eq]; simp only [scM1, owns_whole]
  iintro ⟨⟨H0, H1, H2, H3, H4, H5, H6⟩, HS, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iexact Hg

end Cert.ReferenceIdeal.Hand1

end
-- ==== Proof.RefRun1A.lean ====
/- The second region of the reference program, where the accumulator is reset (k = 0): the body zeroes the accumulator, adds the tile product and leaves the output block alone. -/
import proofs.«148489_g2000000462589658_pallasbulk_581_2_alg».proof.Proof.RefRuns1

set_option maxRecDepth 16384

noncomputable section

namespace Cert.ReferenceIdeal.Hand1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output block and in the accumulator, as pieces (last store first), with the
    proof that on whole memrefs at the stated contents the body runs to a continuation holding the inputs as
    they were and the stored buffers with those pieces written. -/
noncomputable def kernelRun1_A (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : cond1_0 i) (hc1 : ¬cond1_1 i)
    (x0 : Vec F S256x256 .f32) (x1 : Vec F S256x256 .f32) (x2 : Vec F S256x256 .f32) (x3 : Vec F S256x256 .f32) :
    Σ' (L4 : List (View.Piece (Elt F) S256x768 .f32)), { LS : List (View.Piece (Elt F) S256x256 .f32) //
      ∀ (xi4 : Vec F S256x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__prop_concat_kernel i arg2 harg2 arg3 harg3 arg4 harg4 arg5 harg5 arg6 harg6 arg7 harg7) K } := by
  refine ⟨[], ?_, fun xi4 E K => ?run⟩
  case run =>
    simp only [cc1__prop_concat_kernel_eq_skeleton]; unfold cc1__prop_concat_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.ReferenceIdeal.Hand1

end
-- ==== Proof.RefRun1B.lean ====
/- The second region of the reference program, at an inner point (0 < k < 15): the body adds the tile product to the accumulator and leaves the output block alone. -/
import proofs.«148489_g2000000462589658_pallasbulk_581_2_alg».proof.Proof.RefRuns1

set_option maxRecDepth 16384

noncomputable section

namespace Cert.ReferenceIdeal.Hand1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output block and in the accumulator, as pieces (last store first), with the
    proof that on whole memrefs at the stated contents the body runs to a continuation holding the inputs as
    they were and the stored buffers with those pieces written. -/
noncomputable def kernelRun1_B (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : ¬cond1_1 i)
    (x0 : Vec F S256x256 .f32) (x1 : Vec F S256x256 .f32) (x2 : Vec F S256x256 .f32) (x3 : Vec F S256x256 .f32) (xs : Vec F S256x256 .f32) :
    Σ' (L4 : List (View.Piece (Elt F) S256x768 .f32)), { LS : List (View.Piece (Elt F) S256x256 .f32) //
      ∀ (xi4 : Vec F S256x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__prop_concat_kernel i arg2 harg2 arg3 harg3 arg4 harg4 arg5 harg5 arg6 harg6 arg7 harg7) K } := by
  refine ⟨[], ?_, fun xi4 E K => ?run⟩
  case run =>
    simp only [cc1__prop_concat_kernel_eq_skeleton]; unfold cc1__prop_concat_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.ReferenceIdeal.Hand1

end
-- ==== Proof.RefRun1C.lean ====
/- The second region of the reference program, at the last K step (k = 15): the body adds the tile product to the accumulator and writes the three panels of the output block. -/
import proofs.«148489_g2000000462589658_pallasbulk_581_2_alg».proof.Proof.RefRuns1

set_option maxRecDepth 16384

noncomputable section

namespace Cert.ReferenceIdeal.Hand1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output block and in the accumulator, as pieces (last store first), with the
    proof that on whole memrefs at the stated contents the body runs to a continuation holding the inputs as
    they were and the stored buffers with those pieces written. -/
noncomputable def kernelRun1_C (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : cond1_1 i)
    (x0 : Vec F S256x256 .f32) (x1 : Vec F S256x256 .f32) (x2 : Vec F S256x256 .f32) (x3 : Vec F S256x256 .f32) (xs : Vec F S256x256 .f32) :
    Σ' (L4 : List (View.Piece (Elt F) S256x768 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__prop_concat_kernel i arg2 harg2 arg3 harg3 arg4 harg4 arg5 harg5 arg6 harg6 arg7 harg7) K } := by
  refine ⟨?_, ?_, fun E K => ?run⟩
  case run =>
    simp only [cc1__prop_concat_kernel_eq_skeleton]; unfold cc1__prop_concat_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.ReferenceIdeal.Hand1

end
-- ==== Proof.RefFrame1.lean ====
/- The second region of the reference program: its proof data at the region-entry contents. What each
   control case leaves in the accumulator and in the output block; the contents after every grid point, by
   recursion on the point (the accumulator is carried from a point to the next, the output block is written
   only at k = 15); the region invariant (the accumulator at what the point before left); and the body's
   obligation at every point, by cases on the point's position in its row of sixteen. -/
import proofs.«148489_g2000000462589658_pallasbulk_581_2_alg».proof.Proof.RefRun1A
import proofs.«148489_g2000000462589658_pallasbulk_581_2_alg».proof.Proof.RefRun1B
import proofs.«148489_g2000000462589658_pallasbulk_581_2_alg».proof.Proof.RefRun1C

set_option maxRecDepth 16384

noncomputable section

namespace Cert.ReferenceIdeal.Hand1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator's pieces in this case tile it, so they cover it. -/
theorem scoverA (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : cond1_0 i) (hc1 : ¬cond1_1 i)
    (x0 : Vec F S256x256 .f32) (x1 : Vec F S256x256 .f32) (x2 : Vec F S256x256 .f32) (x3 : Vec F S256x256 .f32) (y : S256x256.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S256x256.size (by sl_kernel_rfl) y

/-- What this case leaves in the accumulator: its pieces read back. -/
def soutA (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : cond1_0 i) (hc1 : ¬cond1_1 i)
    (x0 : Vec F S256x256 .f32) (x1 : Vec F S256x256 .f32) (x2 : Vec F S256x256 .f32) (x3 : Vec F S256x256 .f32) : Vec F S256x256 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- The accumulator's pieces in this case tile it, so they cover it. -/
theorem scoverB (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : ¬cond1_1 i)
    (x0 : Vec F S256x256 .f32) (x1 : Vec F S256x256 .f32) (x2 : Vec F S256x256 .f32) (x3 : Vec F S256x256 .f32) (xs : Vec F S256x256 .f32) (y : S256x256.Idx) :
    ∃ pc ∈ (kernelRun1_B c i arg2 harg2 arg3 harg3 arg4 harg4 arg5 harg5 arg6 harg6 arg7 harg7 hc0 hc1 x0 x1 x2 x3 xs).2.1, y ∈ pc.1.set :=
  View.cover_of_tiledL (kernelRun1_B c i arg2 harg2 arg3 harg3 arg4 harg4 arg5 harg5 arg6 harg6 arg7 harg7 hc0 hc1 x0 x1 x2 x3 xs).2.1 S256x256.size (by sl_kernel_rfl) y

/-- What this case leaves in the accumulator: its pieces read back. -/
def soutB (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : ¬cond1_1 i)
    (x0 : Vec F S256x256 .f32) (x1 : Vec F S256x256 .f32) (x2 : Vec F S256x256 .f32) (x3 : Vec F S256x256 .f32) (xs : Vec F S256x256 .f32) : Vec F S256x256 .f32 :=
  VS1.read (Elt F) (VS1.writes (Elt F) VS1.junk (kernelRun1_B c i arg2 harg2 arg3 harg3 arg4 harg4 arg5 harg5 arg6 harg6 arg7 harg7 hc0 hc1 x0 x1 x2 x3 xs).2.1)

/-- The accumulator's pieces in this case tile it, so they cover it. -/
theorem scoverC (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : cond1_1 i)
    (x0 : Vec F S256x256 .f32) (x1 : Vec F S256x256 .f32) (x2 : Vec F S256x256 .f32) (x3 : Vec F S256x256 .f32) (xs : Vec F S256x256 .f32) (y : S256x256.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S256x256.size (by sl_kernel_rfl) y

/-- What this case leaves in the accumulator: its pieces read back. -/
def soutC (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : cond1_1 i)
    (x0 : Vec F S256x256 .f32) (x1 : Vec F S256x256 .f32) (x2 : Vec F S256x256 .f32) (x3 : Vec F S256x256 .f32) (xs : Vec F S256x256 .f32) : Vec F S256x256 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)

/-- At k = 15 the three panel stores tile the output block, so they cover it. -/
theorem coverC_4 (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : cond1_1 i)
    (x0 : Vec F S256x256 .f32) (x1 : Vec F S256x256 .f32) (x2 : Vec F S256x256 .f32) (x3 : Vec F S256x256 .f32) (xs : Vec F S256x256 .f32) (y : S256x768.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S256x256.size (by sl_kernel_rfl) y

/-- What the point with k = 15 leaves in the output block: the three panels read back. -/
def outC_4 (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : cond1_1 i)
    (x0 : Vec F S256x256 .f32) (x1 : Vec F S256x256 .f32) (x2 : Vec F S256x256 .f32) (x3 : Vec F S256x256 .f32) (xs : Vec F S256x256 .f32) : Vec F S256x768 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs).1)

/-- Away from k = 15 nothing is stored into the output block; this stands for its contents there, which
    nothing reads: the block is neither written back nor carried to a point that reads it. -/
def idleOut1 : Vec F S256x768 .f32 := VO1_4.read (Elt F) VO1_4.junk

section Data
variable (V : (c : Dev nD) → (b : Ref sig .tc) → Buf (Elt F) ((c : Thread nD τ).loc b))

/-! ## The contents after each point -/

/-- The accumulator after a point with k = 0. -/
def ptA (c : Dev nD) (t : Fin cfg1.N) (h0 : t.val % 16 = 0) : Vec F S256x256 .f32 :=
  soutA c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => by have := (hcond1_1 t).mp h; omega) (iblk1 V c 0 t) (iblk1 V c 1 t) (iblk1 V c 2 t) (iblk1 V c 3 t)
/-- The accumulator after an inner point, from what the point before left. -/
def ptB (c : Dev nD) (t : Fin cfg1.N) (h0 : ¬t.val % 16 = 0) (h1 : ¬t.val % 16 = 15) (xs : Vec F S256x256 .f32) : Vec F S256x256 .f32 :=
  soutB c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) xs
/-- The accumulator after a point with k = 15, from what the point before left. -/
def ptCs (c : Dev nD) (t : Fin cfg1.N) (h1 : t.val % 16 = 15) (xs : Vec F S256x256 .f32) : Vec F S256x256 .f32 :=
  soutC c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have := (hcond1_0 t).mp h; omega) ((hcond1_1 t).mpr h1) (iblk1 V c 0 t) (iblk1 V c 1 t) (iblk1 V c 2 t) (iblk1 V c 3 t) xs
/-- The output block after a point with k = 15. -/
def ptC4 (c : Dev nD) (t : Fin cfg1.N) (h1 : t.val % 16 = 15) (xs : Vec F S256x256 .f32) : Vec F S256x768 .f32 :=
  outC_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have := (hcond1_0 t).mp h; omega) ((hcond1_1 t).mpr h1) (iblk1 V c 0 t) (iblk1 V c 1 t) (iblk1 V c 2 t) (iblk1 V c 3 t) xs

/-- What the output block's staging buffer and the accumulator hold after the body at position `n`: the case the
    position selects, the accumulator taken from position `n - 1` where the case reads it. -/
def outsAt1 (c : Dev nD) : (n : ℕ) → n < cfg1.N → Vec F S256x768 .f32 × Vec F S256x256 .f32
  | 0, hn => (idleOut1, ptA V c ⟨0, hn⟩ (Nat.zero_mod _))
  | n + 1, hn =>
    if h0 : (n + 1) % 16 = 0 then (idleOut1, ptA V c ⟨n + 1, hn⟩ h0)
    else if h1 : (n + 1) % 16 = 15 then
      (ptC4 V c ⟨n + 1, hn⟩ h1 (outsAt1 c n (Nat.lt_of_succ_lt hn)).2, ptCs V c ⟨n + 1, hn⟩ h1 (outsAt1 c n (Nat.lt_of_succ_lt hn)).2)
    else (idleOut1, ptB V c ⟨n + 1, hn⟩ h0 h1 (outsAt1 c n (Nat.lt_of_succ_lt hn)).2)

theorem outsAt1_A (c : Dev nD) (t : Fin cfg1.N) (h0 : t.val % 16 = 0) :
    outsAt1 V c t.val t.isLt = (idleOut1, ptA V c t h0) := by
  obtain ⟨n, hn⟩ := t
  cases n with
  | zero => exact rfl
  | succ n => exact dif_pos h0

theorem outsAt1_B (c : Dev nD) (t : Fin cfg1.N) (h0 : ¬t.val % 16 = 0) (h1 : ¬t.val % 16 = 15) :
    outsAt1 V c t.val t.isLt = (idleOut1, ptB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h1 : t.val % 16 = 15) :
    outsAt1 V c t.val t.isLt = (ptC4 V c t h1 (outsAt1 V c (t.val - 1) (Nat.lt_of_le_of_lt (Nat.sub_le _ _) t.isLt)).2,
      ptCs V c t h1 (outsAt1 V c (t.val - 1) (Nat.lt_of_le_of_lt (Nat.sub_le _ _) t.isLt)).2) := by
  obtain ⟨n, hn⟩ := t
  have h0 : ¬(n % 16 = 0) := by have : n % 16 = 15 := h1; omega
  cases n with
  | zero => exact absurd (Nat.zero_mod _) h0
  | succ n => exact (dif_neg h0).trans ((dif_pos h1).trans rfl)

/-! ## The region invariant -/

/-- Before position `n`: at the region's entry the class invariant (the accumulator at anything); afterwards the
    accumulator at what the point before left, the untouched buffers and the generator register. -/
def PhiS1 (c : Dev nD) : (n : ℕ) → n ≤ cfg1.N → sProp 𝕄
  | 0, _ => Pipeline.ΦA spec1 c
  | n + 1, hn => iprop(others1 c ∗ owns (c : Thread nD τ) scM1 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1 fullShare ((outsAt1 V c n hn).2) ∗ (∃ r, prngReg c r)) := rfl

theorem PhiS1_pos (c : Dev nD) (n : ℕ) (h : n ≤ cfg1.N) (hz : n ≠ 0) :
    PhiS1 V c n h = iprop(others1 c ∗ owns (c : Thread nD τ) scM1 fullShare ((outsAt1 V c (n - 1) (by omega)).2) ∗ (∃ r, prngReg c r)) := by
  cases n with
  | zero => exact absurd rfl hz
  | succ n => rfl

/-! ## The proof data -/

/-- The proof data of the region on core `c`, at the entry contents `V`: after the body each input's buffer at its
    block and the output's at `outsAt1`; the invariant `PhiS1`; nothing owed; the two windows that read the first
    region's result hold half of that array's share each, every other window its array's full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare := by dsimp only [dat1]
theorem q1_3 (c : Dev nD) : (dat1 V c).q 3 = fullShare.right := by dsimp only [dat1]
theorem q1_4 (c : Dev nD) : (dat1 V c).q 4 = fullShare := by dsimp only [dat1]
theorem owed1 (c : Dev nD) (t : Fin (cfg1.N + 1)) : (dat1 V c).owed t = 0 := rfl
theorem recorded1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The inputs are handed back at their blocks. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) : (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position in its row of sixteen says
    which case runs; the invariant hands over the accumulator at what the point before left (at anything at the
    region's first point) and takes it back at this point's contents; away from k = 15 the output block's buffer
    passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 256 := lt_of_lt_of_eq t.isLt (show cfg1.N = 256 from N_1)
  by_cases h0 : t.val % 16 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [outsAt1_A V c t h0]
    unfold ptA soutA; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HP := (PhiA1_elim c) $$ HΦ
      icases HP with ⟨Hoth, HS, Hg⟩
      iapply ((kernelRun1_A c (grid1.coords t) _ _ _ _ _ _ _ _ _ _ _ _ hc0 hc1 (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverA c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverA c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond1_0 (grid1.coords t) := fun h => h0 ((hcond1_0 t).mp h)
    by_cases h1 : t.val % 16 = 15
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h1]
      unfold ptC4 ptCs outC_4 soutC; (try dsimp only)
      rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverC c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 c _ _ _ _ _ _ _ _ _ _ _ _ _ _ _ _ _ _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold ptB soutB; (try dsimp only)
      rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverB c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hoth, HS, Hg⟩
  iapply (PhiA1_intro c)
  isplitl [Hoth]; · iexact Hoth
  isplitl [HS]; · iexists _; iexact HS
  iexact Hg

theorem hout1 (c : Dev nD) : (dat1 V c).Φ (Fin.last cfg1.N) ⊢ Pipeline.ΦA spec1 c :=
  Phi_out1 V c _ (by rw [Fin.val_last]; have : cfg1.N = 256 := N_1; omega)

end Data

end Cert.ReferenceIdeal.Hand1

end
-- ==== Proof.RefValue0.lean ====
import proofs.«148489_g2000000462589658_pallasbulk_581_2_alg».proof.Proof.RefFrame0
import proofs.«148489_g2000000462589658_pallasbulk_581_2_alg».proof.Proof.Feat
import Idealize.ShloMosaic.Lib.Pipeline.Value
import Idealize.ShloMosaic.Lib.ValueIdx

/-!
# The first call computes the product

Over the extended reals the accumulator after point `(i, k)` holds, at `(p, q)`, the partial sum of the products
`a[256 i + p, n] · x[n, q]` over the first `256 (k + 1)` shared coordinates `n`: zero plus the first tile's
contribution at a row's start, one more tile's contribution at every later point.  At `k = 15` that is the whole
sum, the entry of `a · x`, and it is what the body copies into the output tile; the tiles written back at the
16 row ends cover the output array, which therefore ends holding `a · x`.  Regrouping the sum tile by tile is
valid in any commutative additive monoid, so no finiteness is asked.
-/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.MatProd
open scoped BigOperators

theorem zeroOff : (![0, 0] : Fin 2 → Nat) = fun _ => 0 := funext fun a => by fin_cases a <;> rfl

/-! ## What each case leaves, as the body's arithmetic on what it loads -/

/-- A row's start: the zero tile plus the product of the two tiles. -/
theorem accStart_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : rowStart i) (hc1 : ¬rowEnd i)
    (x0 x1 : Vec F S256x256 .f32) :
    accStart c i arg2 harg2 arg3 harg3 arg4 harg4 arg5 harg5 hc0 hc1 x0 x1 = k0_pay2 (k0_pay1 (F := F)) x0 x1 := by
  unfold accStart
  rw [View.read_writes_eq_canon _ _ _ (coverStart c i arg2 harg2 arg3 harg3 arg4 harg4 arg5 harg5 hc0 hc1 x0 x1)]
  unfold runStart; dsimp only; sl_unfold_words
  rw [View.canon_cons_unit_zero zeroOff]
  simp only [View.readAt_eq_ld, Memref.IsWhole.read_unread, View.ld_unit_zero (S := S256x256) zeroOff, View.readCov_unit_zero (S := S256x256) _ zeroOff]
  try rfl

/-- A row's middle: what the accumulator held plus the product of the two tiles. -/
theorem accMid_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : ¬rowEnd i)
    (x0 x1 acc : Vec F S256x256 .f32) :
    accMid c i arg2 harg2 arg3 harg3 arg4 harg4 arg5 harg5 hc0 hc1 x0 x1 acc = k0_pay2 acc x0 x1 := by
  unfold accMid
  rw [View.read_writes_eq_canon _ _ _ (coverMid c i arg2 harg2 arg3 harg3 arg4 harg4 arg5 harg5 hc0 hc1 x0 x1 acc)]
  unfold runMid; dsimp only; sl_unfold_words
  rw [View.canon_unit_zero zeroOff]
  simp only [View.readAt_eq_ld, Memref.IsWhole.read_unread, View.ld_unit_zero (S := S256x256) zeroOff]
  try rfl

/-- A row's end: the same in the accumulator, -/
theorem accEnd_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : rowEnd i)
    (x0 x1 acc : Vec F S256x256 .f32) :
    accEnd c i arg2 harg2 arg3 harg3 arg4 harg4 arg5 harg5 hc0 hc1 x0 x1 acc = k0_pay2 acc x0 x1 := by
  unfold accEnd
  rw [View.read_writes_eq_canon _ _ _ (coverEnd c i arg2 harg2 arg3 harg3 arg4 harg4 arg5 harg5 hc0 hc1 x0 x1 acc)]
  unfold runEnd; dsimp only; sl_unfold_words
  rw [View.canon_unit_zero zeroOff]
  simp only [View.readAt_eq_ld, Memref.IsWhole.read_unread, View.ld_unit_zero (S := S256x256) zeroOff]
  try rfl

/-- and its copy in the output tile. -/
theorem outEnd_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (hc0 : ¬rowStart i) (hc1 : rowEnd i)
    (x0 x1 acc : Vec F S256x256 .f32) :
    outEnd c i arg2 harg2 arg3 harg3 arg4 harg4 arg5 harg5 hc0 hc1 x0 x1 acc = k0_pay2 acc x0 x1 := by
  unfold outEnd
  rw [View.read_writes_eq_canon _ _ _ (coverOut c i arg2 harg2 arg3 harg3 arg4 harg4 arg5 harg5 hc0 hc1 x0 x1 acc)]
  unfold runEnd; dsimp only; sl_unfold_words
  rw [View.canon_unit_zero zeroOff]
  simp only [View.readAt_eq_ld, Memref.IsWhole.read_unread, View.ld_unit_zero (S := S256x256) zeroOff, View.readCov_unit_zero (S := S256x256) _ zeroOff]
  try rfl

/-! ## The body's arithmetic at an entry, over the extended reals -/

/-- The zero tile's entries are zero. -/
theorem pay1_apply (p q : Fin 256) : k0_pay1 (F := Ideal) (ix2 p q) = 0 := by
  unfold k0_pay1
  refine (congrFun (shapeCast_self _ _) (ix2 p q)).trans ?_
  exact Ideal.ofBits_zero_f32

/-- The update's entry at `(p, q)`: the accumulator's entry plus row `p` of the left tile against column `q` of the right. -/
theorem pay2_apply (acc x0 x1 : Vec Ideal S256x256 .f32) (p q : Fin 256) :
    k0_pay2 (F := Ideal) acc x0 x1 (ix2 p q) = acc (ix2 p q) + ∑ j : Fin 256, x0 (ix2 p j) * x1 (ix2 j q) := by
  unfold k0_pay2
  refine (congrFun (shapeCast_self _ _) (ix2 p q)).trans ?_
  refine (addf_apply _ _ _).trans ?_
  exact congrArg (acc (ix2 p q) + ·)
    ((congrFun (matmul_eq_matProd dot_S256x256_S256x256_S256x256_1_0_0_1_n_n rfl rfl rfl rfl rfl rfl none x0 x1) (ix2 p q)).trans
      (matProd_apply x0 x1 p q))

/-- One more tile: if the accumulator's entry is the partial sum over the first `k` tiles of the shared coordinate and
    the two tiles hold columns `256 k …` of row `r` of `a` and rows `256 k …` of column `q` of `x`, the update's entry is the
    partial sum over the first `k + 1` tiles. -/
theorem add_tile (a : Cert.Feat.Sa.Idx → EReal) (x : Cert.Feat.Sx.Idx → EReal) (x0 x1 : Vec Ideal S256x256 .f32) (accv : EReal)
    (k : ℕ) (hk : k < 16) (p q : Fin 256) (r : Fin 4096)
    (hA : ∀ (j : Fin 256) (kk : Fin 4096), kk.val = 256 * k + j.val → x0 (ix2 p j) = a (ix2 r kk))
    (hX : ∀ (j : Fin 256) (kk : Fin 4096), kk.val = 256 * k + j.val → x1 (ix2 j q) = x (ix2 kk q))
    (hacc : accv = ∑ n ∈ Finset.range (256 * k), Cert.SumLaws.padded (fun kk : Fin 4096 => a (ix2 r kk) * x (ix2 kk q)) n) :
    accv + ∑ j : Fin 256, x0 (ix2 p j) * x1 (ix2 j q)
      = ∑ n ∈ Finset.range (256 * (k + 1)), Cert.SumLaws.padded (fun kk : Fin 4096 => a (ix2 r kk) * x (ix2 kk q)) n := by
  rw [Cert.SumLaws.sum_range_tile_succ (fun kk : Fin 4096 => a (ix2 r kk) * x (ix2 kk q)) 256 k (by omega), hacc]
  exact congrArg _ (Finset.sum_congr rfl fun j _ => by rw [hA j ⟨256 * k + j.val, by omega⟩ rfl, hX j ⟨256 * k + j.val, by omega⟩ rfl])

/-! ## Where the tiles sit in the arrays -/

/-- The printed index maps over the linear point number: the matrix tile is `(t / 16, t % 16)`, the feature tile
    `(t % 16, 0)`, the output tile `(t / 16, 0)`. -/
theorem tile_index : ∀ t : Fin cfg0.N, win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

section
variable (V : (c : Dev nD) → (b : Ref sig .tc) → Buf (Elt Ideal) ((c : Thread nD τ).loc b))

/-- The square matrix and the feature matrix as the call finds them, as functions of the index into the extended reals. -/
abbrev matA (c : Dev nD) : Cert.Feat.Sa.Idx → EReal := V c main_arg1
abbrev matX (c : Dev nD) : Cert.Feat.Sx.Idx → EReal := V c main_arg0

/-- The matrix tile at point `t` holds rows `256 (t / 16) …`, columns `256 (t % 16) …` of the matrix. -/
theorem tileA_apply (c : Dev nD) (t : Fin cfg0.N) (p j : Fin 256) (r kk : Fin 4096)
    (hr : r.val = 256 * (t.val / 16) + p.val) (hk : kk.val = 256 * (t.val % 16) + j.val) :
    tile0 V c 0 t (ix2 p j) = V c main_arg1 (ix2 r kk) := by
  obtain ⟨e0, e1, -, -, -, -⟩ := tile_index t
  show V c main_arg1 (((cfg0.win 0).blk t).view.emb (ix2 p j)) = V c main_arg1 (ix2 r kk)
  refine congrArg (V c main_arg1) (funext fun a => Fin.ext ?_)
  match a with
  | ⟨0, _⟩ => show win0_0.index t (0 : Fin 2) * 256 + 1 * p.val = r.val; omega
  | ⟨1, _⟩ => show win0_0.index t (1 : Fin 2) * 256 + 1 * j.val = kk.val; omega

/-- The feature tile at point `t` holds rows `256 (t % 16) …` of the feature matrix. -/
theorem tileX_apply (c : Dev nD) (t : Fin cfg0.N) (j q : Fin 256) (kk : Fin 4096)
    (hk : kk.val = 256 * (t.val % 16) + j.val) :
    tile0 V c 1 t (ix2 j q) = V c main_arg0 (ix2 kk q) := by
  obtain ⟨-, -, e0, e1, -, -⟩ := tile_index t
  show V c main_arg0 (((cfg0.win 1).blk t).view.emb (ix2 j q)) = V c main_arg0 (ix2 kk q)
  refine congrArg (V c main_arg0) (funext fun a => Fin.ext ?_)
  match a with
  | ⟨0, _⟩ => show win0_1.index t (0 : Fin 2) * 256 + 1 * j.val = kk.val; omega
  | ⟨1, _⟩ => show win0_1.index t (1 : Fin 2) * 256 + 1 * q.val = q.val; omega

/-! ## The accumulator after each point -/

/-- After point `n = 16 i + k` the accumulator's entry `(p, q)` is the partial sum of row `256 i + p` of the matrix
    against column `q` of the features over the first `256 (k + 1)` shared coordinates. -/
theorem accAt_apply (c : Dev nD) : ∀ (n : ℕ) (hn : n < cfg0.N) (p q : Fin 256) (r : Fin 4096), r.val = 256 * (n / 16) + p.val →
    accAt V c n hn (ix2 p q)
      = ∑ m ∈ Finset.range (256 * (n % 16 + 1)), Cert.SumLaws.padded (fun kk : Fin 4096 => matA V c (ix2 r kk) * matX V c (ix2 kk q)) m := by
  intro n
  induction n with
  | zero =>
    intro hn p q r hr
    refine (congrFun (accAt_start V c ⟨0, hn⟩ (Nat.zero_mod _) (show ¬(0 % 16 = 15) by decide)) (ix2 p q)).trans ?_
    refine (congrFun (accStart_eq c (grid0.coords ⟨0, hn⟩) (mA ⟨0, hn⟩) (hA ⟨0, hn⟩) (mX ⟨0, hn⟩) (hX ⟨0, hn⟩) (mO ⟨0, hn⟩) (hO ⟨0, hn⟩) mAcc (Memref.isWhole_whole _) _ _ (tile0 V c 0 ⟨0, hn⟩) (tile0 V c 1 ⟨0, hn⟩)) (ix2 p q)).trans ?_
    refine (pay2_apply (k0_pay1 (F := Ideal)) (tile0 V c 0 ⟨0, hn⟩) (tile0 V c 1 ⟨0, hn⟩) p q).trans ?_
    exact add_tile (matA V c) (matX V c) (tile0 V c 0 ⟨0, hn⟩) (tile0 V c 1 ⟨0, hn⟩) _ 0 (by omega) p q r
      (fun j kk hkk => tileA_apply V c ⟨0, hn⟩ p j r kk hr hkk)
      (fun j kk hkk => tileX_apply V c ⟨0, hn⟩ j q kk hkk)
      ((pay1_apply p q).trans (Cert.SumLaws.sum_range_tile_zero _ 256).symm)
  | succ n ih =>
    intro hn p q r hr
    have hN : n + 1 < 256 := lt_of_lt_of_eq hn (show cfg0.N = 256 from N_0)
    by_cases h0 : (n + 1) % 16 = 0
    · have h1 : ¬(n + 1) % 16 = 15 := by omega
      refine (congrFun (accAt_start V c ⟨n + 1, hn⟩ h0 h1) (ix2 p q)).trans ?_
      refine (congrFun (accStart_eq c (grid0.coords ⟨n + 1, hn⟩) (mA ⟨n + 1, hn⟩) (hA ⟨n + 1, hn⟩) (mX ⟨n + 1, hn⟩) (hX ⟨n + 1, hn⟩) (mO ⟨n + 1, hn⟩) (hO ⟨n + 1, hn⟩) mAcc (Memref.isWhole_whole _) _ _ (tile0 V c 0 ⟨n + 1, hn⟩) (tile0 V c 1 ⟨n + 1, hn⟩)) (ix2 p q)).trans ?_
      refine (pay2_apply (k0_pay1 (F := Ideal)) (tile0 V c 0 ⟨n + 1, hn⟩) (tile0 V c 1 ⟨n + 1, hn⟩) p q).trans ?_
      exact add_tile (matA V c) (matX V c) (tile0 V c 0 ⟨n + 1, hn⟩) (tile0 V c 1 ⟨n + 1, hn⟩) _ ((n + 1) % 16) (by omega) p q r
        (fun j kk hkk => tileA_apply V c ⟨n + 1, hn⟩ p j r kk hr hkk)
        (fun j kk hkk => tileX_apply V c ⟨n + 1, hn⟩ j q kk hkk)
        ((pay1_apply p q).trans (Cert.SumLaws.sum_range_tile_of_eq_zero _ 256 _ h0).symm)
    · have hprev : accAt V c n (Nat.lt_of_succ_lt hn) (ix2 p q)
          = ∑ m ∈ Finset.range (256 * ((n + 1) % 16)), Cert.SumLaws.padded (fun kk : Fin 4096 => matA V c (ix2 r kk) * matX V c (ix2 kk q)) m := by
        have e : (n + 1) % 16 = n % 16 + 1 := by omega
        rw [e]
        exact ih (Nat.lt_of_succ_lt hn) p q r (by omega)
      by_cases h1 : (n + 1) % 16 = 15
      · refine (congrFun (accAt_end V c ⟨n + 1, hn⟩ h0 h1) (ix2 p q)).trans ?_
        refine (congrFun (accEnd_eq c (grid0.coords ⟨n + 1, hn⟩) (mA ⟨n + 1, hn⟩) (hA ⟨n + 1, hn⟩) (mX ⟨n + 1, hn⟩) (hX ⟨n + 1, hn⟩) (mO ⟨n + 1, hn⟩) (hO ⟨n + 1, hn⟩) mAcc (Memref.isWhole_whole _) _ _ (tile0 V c 0 ⟨n + 1, hn⟩) (tile0 V c 1 ⟨n + 1, hn⟩) (accAt V c n (Nat.lt_of_succ_lt hn))) (ix2 p q)).trans ?_
        refine (pay2_apply (accAt V c n (Nat.lt_of_succ_lt hn)) (tile0 V c 0 ⟨n + 1, hn⟩) (tile0 V c 1 ⟨n + 1, hn⟩) p q).trans ?_
        exact add_tile (matA V c) (matX V c) (tile0 V c 0 ⟨n + 1, hn⟩) (tile0 V c 1 ⟨n + 1, hn⟩) _ ((n + 1) % 16) (by omega) p q r
          (fun j kk hkk => tileA_apply V c ⟨n + 1, hn⟩ p j r kk hr hkk)
          (fun j kk hkk => tileX_apply V c ⟨n + 1, hn⟩ j q kk hkk)
          hprev
      · refine (congrFun (accAt_mid V c ⟨n + 1, hn⟩ h0 h1) (ix2 p q)).trans ?_
        refine (congrFun (accMid_eq c (grid0.coords ⟨n + 1, hn⟩) (mA ⟨n + 1, hn⟩) (hA ⟨n + 1, hn⟩) (mX ⟨n + 1, hn⟩) (hX ⟨n + 1, hn⟩) (mO ⟨n + 1, hn⟩) (hO ⟨n + 1, hn⟩) mAcc (Memref.isWhole_whole _) _ _ (tile0 V c 0 ⟨n + 1, hn⟩) (tile0 V c 1 ⟨n + 1, hn⟩) (accAt V c n (Nat.lt_of_succ_lt hn))) (ix2 p q)).trans ?_
        refine (pay2_apply (accAt V c n (Nat.lt_of_succ_lt hn)) (tile0 V c 0 ⟨n + 1, hn⟩) (tile0 V c 1 ⟨n + 1, hn⟩) p q).trans ?_
        exact add_tile (matA V c) (matX V c) (tile0 V c 0 ⟨n + 1, hn⟩) (tile0 V c 1 ⟨n + 1, hn⟩) _ ((n + 1) % 16) (by omega) p q r
          (fun j kk hkk => tileA_apply V c ⟨n + 1, hn⟩ p j r kk hr hkk)
          (fun j kk hkk => tileX_apply V c ⟨n + 1, hn⟩ j q kk hkk)
          hprev

/-- At a row's end the output tile holds the accumulator's final contents. -/
theorem outAt_eq_accAt (c : Dev nD) (t : Fin cfg0.N) (h0 : ¬t.val % 16 = 0) (h1 : t.val % 16 = 15) :
    outAt V c t = accAt V c t.val t.isLt :=
  (outAt_end V c t h0 h1).trans
    ((outEnd_eq c (grid0.coords t) (mA t) (hA t) (mX t) (hX t) (mO t) (hO t) mAcc (Memref.isWhole_whole _) _ _ (tile0 V c 0 t) (tile0 V c 1 t) _).trans
      ((accAt_end V c t h0 h1).trans (accEnd_eq c (grid0.coords t) (mA t) (hA t) (mX t) (hX t) (mO t) (hO t) mAcc (Memref.isWhole_whole _) _ _ (tile0 V c 0 t) (tile0 V c 1 t) _)).symm)

/-! ## From the tiles to the array -/

/-- What a row's end writes back is its tile of the product. -/
theorem flushed0_eq (c : Dev nD) (t : Fin cfg0.N) (hf : (cfg0.win 2).flush t = true) :
    (dat0 V c).flushed 2 t = ((cfg0.win 2).blk t).view.read (Elt Ideal) (Cert.Feat.hop (V c main_arg1) (V c main_arg0)) := by
  have h1 : t.val % 16 = 15 := (flush0_2 t).mp hf
  have h0 : ¬t.val % 16 = 0 := by omega
  have hN : t.val < 256 := lt_of_lt_of_eq t.isLt (show cfg0.N = 256 from N_0)
  obtain ⟨-, -, -, -, e0, e1⟩ := tile_index t
  show (cfg0.win 2).cut (grid0.coords t) ((dat0 V c).after 2 t) = _
  rw [after0_2, outAt_eq_accAt V c t h0 h1]
  funext y
  obtain ⟨p, q, rfl⟩ : ∃ (p q : Fin 256), y = ix2 p q := ⟨y 0, y 1, eq_ix2 y⟩
  show accAt V c t.val t.isLt (ix2 p q) = Cert.Feat.hop (V c main_arg1) (V c main_arg0) (((cfg0.win 2).blk t).view.emb (ix2 p q))
  have hemb : ((cfg0.win 2).blk t).view.emb (ix2 p q) = ix2 (⟨256 * (t.val / 16) + p.val, by omega⟩ : Fin 4096) q := by
    funext a; apply Fin.ext
    match a with
    | ⟨0, _⟩ => show win0_2.index t (0 : Fin 2) * 256 + 1 * p.val = 256 * (t.val / 16) + p.val; omega
    | ⟨1, _⟩ => show win0_2.index t (1 : Fin 2) * 256 + 1 * q.val = q.val; omega
  rw [hemb, Cert.Feat.hop_eq_range]
  have e : 256 * (t.val % 16 + 1) = 4096 := by omega
  exact (accAt_apply V c t.val t.isLt p q ⟨256 * (t.val / 16) + p.val, by omega⟩ rfl).trans (by rw [e])

/-- An index of the output array is in point `t`'s tile iff each coordinate is in the tile's range on its axis. -/
theorem mem_tile (t : Fin cfg0.N) (i : Cert.Feat.Sx.Idx) :
    i ∈ ((cfg0.win 2).blk t).view.set ↔ ∀ a : Fin 2, win0_2.index t a * S256x256.size a ≤ (i a).val ∧ (i a).val < win0_2.index t a * S256x256.size a + S256x256.size a := by
  show i ∈ ((View.whole main_call0_v0).slice (win0_2.rect t)).set ↔ _
  rw [View.set_slice_whole, Rect.mem_set_unit]
  exact Iff.rfl

/-- THE PRODUCT: after the call the output array holds `a · x` of the arrays as the call found them. -/
theorem final0 (c : Dev nD) : (dat0 (F := Ideal) V c).arrAt 2 cfg0.N = Cert.Feat.hop (V c main_arg1) (V c main_arg0) :=
  (dat0 V c).arrAt_eq_of_cover 2 _ (fun t hf => flushed0_eq V c t hf) (fun i => by
    have hi0 : (i 0).val < 4096 := (i 0).isLt
    have hi1 : (i 1).val < 256 := (i 1).isLt
    have hlt : 16 * ((i 0).val / 256) + 15 < cfg0.N := by rw [show cfg0.N = 256 from N_0]; omega
    refine ⟨⟨16 * ((i 0).val / 256) + 15, hlt⟩, (flush0_2 _).mpr (by show (16 * ((i 0).val / 256) + 15) % 16 = 15; omega), ?_⟩
    obtain ⟨-, -, -, -, e0, e1⟩ := tile_index ⟨16 * ((i 0).val / 256) + 15, hlt⟩
    rw [mem_tile]
    intro a
    match a with
    | ⟨0, _⟩ => show win0_2.index _ (0 : Fin 2) * 256 ≤ (i 0).val ∧ (i 0).val < win0_2.index _ (0 : Fin 2) * 256 + 256; (try dsimp only at e0); omega
    | ⟨1, _⟩ => show win0_2.index _ (1 : Fin 2) * 256 ≤ (i 1).val ∧ (i 1).val < win0_2.index _ (1 : Fin 2) * 256 + 256; omega)

end

end Cert.ReferenceIdeal.Hand

end
-- ==== Proof.RefPieces1.lean ====
/- The second region of the reference program: what each control case leaves, as the payloads of the blocks
   it read. The accumulator after a reset point is the zero block plus the tile product; after any other
   point it is what the point before left plus the tile product. At k = 15 the output block is three panels
   side by side: the feature rows, the first product's rows, and the accumulator. -/
import proofs.«148489_g2000000462589658_pallasbulk_581_2_alg».proof.Proof.RefFrame1
import Idealize.ShloMosaic.Lib.Pipeline.Value
import Idealize.ShloMosaic.Lib.ValueIdx

set_option maxRecDepth 16384

noncomputable section

namespace Cert.ReferenceIdeal.Hand1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-- After a reset point the accumulator holds the zero block plus the product of the two tiles. -/
theorem soutA_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : cond1_0 i) (hc1 : ¬cond1_1 i)
    (x0 : Vec F S256x256 .f32) (x1 : Vec F S256x256 .f32) (x2 : Vec F S256x256 .f32) (x3 : Vec F S256x256 .f32) : soutA c i arg2 harg2 arg3 harg3 arg4 harg4 arg5 harg5 arg6 harg6 arg7 harg7 hc0 hc1 x0 x1 x2 x3 = k1_pay2 (k1_pay1 (F := F)) x0 x1 := by
  unfold soutA
  rw [View.read_writes_eq_canon _ _ _ (scoverA c i arg2 harg2 arg3 harg3 arg4 harg4 arg5 harg5 arg6 harg6 arg7 harg7 hc0 hc1 x0 x1 x2 x3)]
  unfold kernelRun1_A
  dsimp only
  sl_unfold_words
  rw [View.canon_cons_unit_zero (S := S256x256) hz2, View.readCov_unit_zero (S := S256x256) _ hz2]
  simp only [View.readAt_eq_ld, harg2.read_unread, harg3.read_unread, View.ld_unit_zero (S := S256x256) hz2]

/-- After an inner point: what it held plus the product of the two tiles. -/
theorem soutB_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : ¬cond1_1 i)
    (x0 : Vec F S256x256 .f32) (x1 : Vec F S256x256 .f32) (x2 : Vec F S256x256 .f32) (x3 : Vec F S256x256 .f32) (xs : Vec F S256x256 .f32) : soutB c i arg2 harg2 arg3 harg3 arg4 harg4 arg5 harg5 arg6 harg6 arg7 harg7 hc0 hc1 x0 x1 x2 x3 xs = k1_pay2 xs x0 x1 := by
  unfold soutB
  rw [View.read_writes_eq_canon _ _ _ (scoverB c i arg2 harg2 arg3 harg3 arg4 harg4 arg5 harg5 arg6 harg6 arg7 harg7 hc0 hc1 x0 x1 x2 x3 xs)]
  unfold kernelRun1_B
  dsimp only
  sl_unfold_words
  rw [View.canon_unit_zero (S := S256x256) hz2]
  simp only [View.readAt_eq_ld, harg2.read_unread, harg3.read_unread, harg7.read_unread, View.ld_unit_zero (S := S256x256) hz2]

/-- After the last K step: the same. -/
theorem soutC_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : cond1_1 i)
    (x0 : Vec F S256x256 .f32) (x1 : Vec F S256x256 .f32) (x2 : Vec F S256x256 .f32) (x3 : Vec F S256x256 .f32) (xs : Vec F S256x256 .f32) : soutC c i arg2 harg2 arg3 harg3 arg4 harg4 arg5 harg5 arg6 harg6 arg7 harg7 hc0 hc1 x0 x1 x2 x3 xs = k1_pay2 xs x0 x1 := by
  unfold soutC
  rw [View.read_writes_eq_canon _ _ _ (scoverC c i arg2 harg2 arg3 harg3 arg4 harg4 arg5 harg5 arg6 harg6 arg7 harg7 hc0 hc1 x0 x1 x2 x3 xs)]
  unfold kernelRun1_C
  dsimp only
  sl_unfold_words
  rw [View.canon_unit_zero (S := S256x256) hz2]
  simp only [View.readAt_eq_ld, harg2.read_unread, harg3.read_unread, harg7.read_unread, View.ld_unit_zero (S := S256x256) hz2]

/-- Three blocks of 256 columns side by side, as one block of 768 columns. -/
def blockPanels (u v w : Vec F S256x256 .f32) : Vec F S256x768 .f32 := fun j =>
  if h : (j 1).val < 256 then u (ix2 (⟨(j 0).val, (j 0).isLt⟩ : Fin 256) (⟨(j 1).val, h⟩ : Fin 256))
  else if h2 : (j 1).val < 512 then v (ix2 (⟨(j 0).val, (j 0).isLt⟩ : Fin 256) (⟨(j 1).val - 256, by omega⟩ : Fin 256))
  else w (ix2 (⟨(j 0).val, (j 0).isLt⟩ : Fin 256) (⟨(j 1).val - 512, by have h3 : (j 1).val < 768 := (j 1).isLt; omega⟩ : Fin 256))

theorem blockPanels_left (u v w : Vec F S256x256 .f32) (j : S256x768.Idx) (p q : Fin 256)
    (h0 : (j 0).val = p.val) (h1 : (j 1).val = q.val) : blockPanels u v w j = u (ix2 p q) := by
  have hq : (j 1).val < 256 := by rw [h1]; exact q.isLt
  unfold blockPanels
  rw [dif_pos hq]
  exact congrArg u (funext fun a => Fin.ext (by match a with | ⟨0, _⟩ => exact h0 | ⟨1, _⟩ => exact h1))

theorem blockPanels_mid (u v w : Vec F S256x256 .f32) (j : S256x768.Idx) (p q : Fin 256)
    (h0 : (j 0).val = p.val) (h1 : (j 1).val = 256 + q.val) : blockPanels u v w j = v (ix2 p q) := by
  have hq := q.isLt
  have hn : ¬(j 1).val < 256 := by omega
  have hm : (j 1).val < 512 := by omega
  unfold blockPanels
  rw [dif_neg hn, dif_pos hm]
  exact congrArg v (funext fun a => Fin.ext (by
    match a with
    | ⟨0, _⟩ => exact h0
    | ⟨1, _⟩ => show (j 1).val - 256 = q.val; omega))

theorem blockPanels_right (u v w : Vec F S256x256 .f32) (j : S256x768.Idx) (p q : Fin 256)
    (h0 : (j 0).val = p.val) (h1 : (j 1).val = 512 + q.val) : blockPanels u v w j = w (ix2 p q) := by
  have hn : ¬(j 1).val < 256 := by omega
  have hm : ¬(j 1).val < 512 := by omega
  unfold blockPanels
  rw [dif_neg hn, dif_neg hm]
  exact congrArg w (funext fun a => Fin.ext (by
    match a with
    | ⟨0, _⟩ => exact h0
    | ⟨1, _⟩ => show (j 1).val - 512 = q.val; omega))

/-- At k = 15 the three stores put the feature rows, the first product's rows and the accumulator side by side. -/
theorem outC_4_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x768 .f32) (harg6 : arg6.IsWhole) (arg7 : Memref sig .tc .vmem S256x256 .f32) (harg7 : arg7.IsWhole) (hc0 : ¬cond1_0 i) (hc1 : cond1_1 i)
    (x0 : Vec F S256x256 .f32) (x1 : Vec F S256x256 .f32) (x2 : Vec F S256x256 .f32) (x3 : Vec F S256x256 .f32) (xs : Vec F S256x256 .f32) :
    outC_4 c i arg2 harg2 arg3 harg3 arg4 harg4 arg5 harg5 arg6 harg6 arg7 harg7 hc0 hc1 x0 x1 x2 x3 xs = blockPanels x2 (k1_pay3 x3) (k1_pay2 xs x0 x1) := by
  unfold outC_4
  rw [View.read_writes_eq_canon _ _ _ (coverC_4 c i arg2 harg2 arg3 harg3 arg4 harg4 arg5 harg5 arg6 harg6 arg7 harg7 hc0 hc1 x0 x1 x2 x3 xs)]
  funext y
  refine View.canon_apply_of_pieces (blockPanels x2 (k1_pay3 x3) (k1_pay2 xs x0 x1)) _ ?_ y (coverC_4 c i arg2 harg2 arg3 harg3 arg4 harg4 arg5 harg5 arg6 harg6 arg7 harg7 hc0 hc1 x0 x1 x2 x3 xs y)
  unfold kernelRun1_C
  dsimp only
  sl_unfold_words
  simp only [View.readAt_eq_ld, harg2.read_unread, harg3.read_unread, harg4.read_unread, harg5.read_unread, harg7.read_unread,
    View.ld_unit_zero (S := S256x256) hz2, View.readCov_unit_zero (S := S256x256) _ hz2]
  intro p hp x
  simp only [List.mem_cons, List.mem_nil_iff, or_false] at hp
  rcases hp with rfl | rfl | rfl
  · obtain ⟨a, b, rfl⟩ : ∃ (a b : Fin 256), x = ix2 a b := ⟨x 0, x 1, eq_ix2 x⟩
    exact (blockPanels_right _ _ _ _ a b (by simp [Rect.emb_apply]) (by simp [Rect.emb_apply])).symm
  · obtain ⟨a, b, rfl⟩ : ∃ (a b : Fin 256), x = ix2 a b := ⟨x 0, x 1, eq_ix2 x⟩
    exact (blockPanels_mid _ _ _ _ a b (by simp [Rect.emb_apply]) (by simp [Rect.emb_apply])).symm
  · obtain ⟨a, b, rfl⟩ : ∃ (a b : Fin 256), x = ix2 a b := ⟨x 0, x 1, eq_ix2 x⟩
    exact (blockPanels_left _ _ _ _ a b (by simp [Rect.emb_apply]) (by simp [Rect.emb_apply])).symm

end Cert.ReferenceIdeal.Hand1

end
-- ==== Proof.RefValue1.lean ====
/- The second region of the reference program, over the extended reals: what its output array holds when the
   region ends. The accumulator after the point (i, k) is, at (p, q), the partial sum over the first 256·(k+1)
   shared coordinates of the products of row 256·i + p of the square matrix with column q of the first
   product — one more tile of 256 terms per point, the reset point starting from zero. At k = 15 that is the
   whole sum, the second product's entry; the output block then holds the feature rows, the first product's
   rows and those entries side by side, and the sixteen row blocks tile the output array. -/
import proofs.«148489_g2000000462589658_pallasbulk_581_2_alg».proof.Proof.RefPieces1
import proofs.«148489_g2000000462589658_pallasbulk_581_2_alg».proof.Proof.Feat
import Idealize.ShloMosaic.Lib.Pipeline.Value
import Idealize.ShloMosaic.Lib.ValueIdx

set_option maxRecDepth 16384

noncomputable section

open scoped BigOperators

namespace Cert.ReferenceIdeal.Hand1

open Cert.ReferenceIdeal.Gen
open Idealize.ShloMosaic Idealize.ShloMosaic.TcCoe Idealize.SL.Sem
open Idealize.ShloMosaic.Pipeline (Dat)
open Idealize.ShloMosaic.ValueIdx

/-! ## The payloads at an index -/

/-- The reset stores zeros. -/
theorem pay1_apply (p q : Fin 256) : k1_pay1 (F := Ideal) (ix2 p q) = 0 := by
  unfold k1_pay1
  simp only [shapeCast_self]
  exact Ideal.ofBits_zero_f32

/-- The accumulator's update: what it held plus the product of the two tiles. -/
theorem pay2_eq (v3 v4 v5 : Vec Ideal S256x256 .f32) :
    k1_pay2 (F := Ideal) v3 v4 v5 = addf v3 (MatProd.matProd v4 v5) := by
  unfold k1_pay2
  simp only [shapeCast_self]
  exact congrArg (addf v3) (MatProd.matmul_eq_matProd dot_S256x256_S256x256_S256x256_1_0_0_1_n_n rfl rfl rfl rfl rfl rfl none v4 v5)

theorem pay2_apply (v3 v4 v5 : Vec Ideal S256x256 .f32) (p q : Fin 256) :
    k1_pay2 (F := Ideal) v3 v4 v5 (ix2 p q) = v3 (ix2 p q) + ∑ kk : Fin 256, v4 (ix2 p kk) * v5 (ix2 kk q) := by
  rw [pay2_eq]; rfl

/-- The middle panel's payload is the block itself. -/
theorem pay3_eq {F : FTy → Type} [FloatOps F] (v : Vec F S256x256 .f32) : k1_pay3 v = v := by
  unfold k1_pay3
  exact shapeCast_self _ _

/-! ## Which block each window shows at a point -/

theorem idx1_0 : ∀ t : Fin cfg1.N, win1_0.index t 0 = t.val / 16 ∧ win1_0.index t 1 = t.val % 16 :=
  (by decide +kernel : ∀ t : Fin grid1.N, win1_0.index t 0 = t.val / 16 ∧ win1_0.index t 1 = t.val % 16)
theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)
theorem idx1_2 : ∀ t : Fin cfg1.N, win1_2.index t 0 = t.val / 16 ∧ win1_2.index t 1 = 0 :=
  (by decide +kernel : ∀ t : Fin grid1.N, win1_2.index t 0 = t.val / 16 ∧ win1_2.index t 1 = 0)
theorem idx1_3 : ∀ t : Fin cfg1.N, win1_3.index t 0 = t.val / 16 ∧ win1_3.index t 1 = 0 :=
  (by decide +kernel : ∀ t : Fin grid1.N, win1_3.index t 0 = t.val / 16 ∧ win1_3.index t 1 = 0)
theorem idx1_4 : ∀ t : Fin cfg1.N, win1_4.index t 0 = t.val / 16 ∧ win1_4.index t 1 = 0 :=
  (by decide +kernel : ∀ t : Fin grid1.N, win1_4.index t 0 = t.val / 16 ∧ win1_4.index t 1 = 0)

/-- Every row of the output array lies in the row block some point with k = 15 writes back. -/
theorem cover1 (i : S4096x768.Idx) :
    ∃ t : Fin cfg1.N, (cfg1.win 4).flush t = true ∧ i ∈ ((View.whole main_v0).slice (win1_4.rect t)).set := by
  have hi0 : (i 0).val < 4096 := (i 0).isLt
  have hi1 : (i 1).val < 768 := (i 1).isLt
  have hN : cfg1.N = 256 := N_1
  have hlt : 16 * ((i 0).val / 256) + 15 < cfg1.N := by rw [hN]; omega
  refine ⟨⟨16 * ((i 0).val / 256) + 15, hlt⟩, (flush1_4 _).mpr (by show (16 * ((i 0).val / 256) + 15) % 16 = 15; omega), ?_⟩
  rw [View.set_slice_whole, Rect.mem_set_unit]
  intro a
  match a with
  | ⟨0, _⟩ =>
    show win1_4.index ⟨16 * ((i 0).val / 256) + 15, hlt⟩ 0 * 256 ≤ (i 0).val ∧ (i 0).val < win1_4.index ⟨16 * ((i 0).val / 256) + 15, hlt⟩ 0 * 256 + 256
    rw [(idx1_4 _).1]
    show (16 * ((i 0).val / 256) + 15) / 16 * 256 ≤ (i 0).val ∧ (i 0).val < (16 * ((i 0).val / 256) + 15) / 16 * 256 + 256
    omega
  | ⟨1, _⟩ =>
    show win1_4.index ⟨16 * ((i 0).val / 256) + 15, hlt⟩ 1 * 768 ≤ (i 1).val ∧ (i 1).val < win1_4.index ⟨16 * ((i 0).val / 256) + 15, hlt⟩ 1 * 768 + 768
    rw [(idx1_4 _).2]
    omega

section Value
variable (V : (c : Dev nD) → (b : Ref sig .tc) → Buf (Elt Ideal) ((c : Thread nD τ).loc b))

/-- The three arrays the region reads, as functions of their indices. -/
abbrev aX0 (c : Dev nD) : Cert.Feat.Sx.Idx → EReal := V c main_arg0
abbrev aA (c : Dev nD) : Cert.Feat.Sa.Idx → EReal := V c main_arg1
abbrev aX1 (c : Dev nD) : Cert.Feat.Sx.Idx → EReal := V c main_call0_v0
/-- The four input blocks at a point. -/
abbrev bA (c : Dev nD) (t : Fin cfg1.N) : Vec Ideal S256x256 .f32 := iblk1 V c 0 t
abbrev bK (c : Dev nD) (t : Fin cfg1.N) : Vec Ideal S256x256 .f32 := iblk1 V c 1 t
abbrev bX0 (c : Dev nD) (t : Fin cfg1.N) : Vec Ideal S256x256 .f32 := iblk1 V c 2 t
abbrev bX1 (c : Dev nD) (t : Fin cfg1.N) : Vec Ideal S256x256 .f32 := iblk1 V c 3 t

/-! ## The blocks, entry by entry -/

/-- The square matrix's tile at the point (i, k): rows 256·i …, columns 256·k …. -/
theorem blk0_apply (c : Dev nD) (t : Fin cfg1.N) (p kk : Fin 256) (r kc : Fin 4096)
    (hr : r.val = 256 * (t.val / 16) + p.val) (hk : kc.val = 256 * (t.val % 16) + kk.val) :
    bA V c t (ix2 p kk) = aA V c (ix2 r kc) := by
  unfold bA aA iblk1
  rw [View.read_apply]
  show V c main_arg1 _ = V c main_arg1 _
  congr 1
  funext a
  apply Fin.ext
  match a with
  | ⟨0, _⟩ => show win1_0.index t 0 * 256 + 1 * p.val = r.val; rw [(idx1_0 t).1, hr]; omega
  | ⟨1, _⟩ => show win1_0.index t 1 * 256 + 1 * kk.val = kc.val; rw [(idx1_0 t).2, hk]; omega

/-- The first product's tile at the point (i, k): rows 256·k …. -/
theorem blk1_apply (c : Dev nD) (t : Fin cfg1.N) (kk q : Fin 256) (kc : Fin 4096)
    (hk : kc.val = 256 * (t.val % 16) + kk.val) :
    bK V c t (ix2 kk q) = aX1 V c (ix2 kc q) := by
  unfold bK aX1 iblk1
  rw [View.read_apply]
  show V c main_call0_v0 _ = V c main_call0_v0 _
  congr 1
  funext a
  apply Fin.ext
  match a with
  | ⟨0, _⟩ => show win1_1.index t 0 * 256 + 1 * kk.val = kc.val; rw [(idx1_1 t).1, hk]; omega
  | ⟨1, _⟩ => show win1_1.index t 1 * 256 + 1 * q.val = q.val; rw [(idx1_1 t).2]; omega

/-- The feature matrix's row block i. -/
theorem blk2_apply (c : Dev nD) (t : Fin cfg1.N) (p q : Fin 256) (r : Fin 4096)
    (hr : r.val = 256 * (t.val / 16) + p.val) :
    bX0 V c t (ix2 p q) = aX0 V c (ix2 r q) := by
  unfold bX0 aX0 iblk1
  rw [View.read_apply]
  show V c main_arg0 _ = V c main_arg0 _
  congr 1
  funext a
  apply Fin.ext
  match a with
  | ⟨0, _⟩ => show win1_2.index t 0 * 256 + 1 * p.val = r.val; rw [(idx1_2 t).1, hr]; omega
  | ⟨1, _⟩ => show win1_2.index t 1 * 256 + 1 * q.val = q.val; rw [(idx1_2 t).2]; omega

/-- The first product's row block i. -/
theorem blk3_apply (c : Dev nD) (t : Fin cfg1.N) (p q : Fin 256) (r : Fin 4096)
    (hr : r.val = 256 * (t.val / 16) + p.val) :
    bX1 V c t (ix2 p q) = aX1 V c (ix2 r q) := by
  unfold bX1 aX1 iblk1
  rw [View.read_apply]
  show V c main_call0_v0 _ = V c main_call0_v0 _
  congr 1
  funext a
  apply Fin.ext
  match a with
  | ⟨0, _⟩ => show win1_3.index t 0 * 256 + 1 * p.val = r.val; rw [(idx1_3 t).1, hr]; omega
  | ⟨1, _⟩ => show win1_3.index t 1 * 256 + 1 * q.val = q.val; rw [(idx1_3 t).2]; omega

/-! ## The accumulator, point by point -/

/-- The products summed for the entry (r, q) of the second product. -/
abbrev terms (c : Dev nD) (r : Fin 4096) (q : Fin 256) : Fin 4096 → EReal :=
  fun kk => aA V c (ix2 r kk) * aX1 V c (ix2 kk q)

/-- The tile product at the point t adds the terms 256·k … 256·k + 255. -/
theorem tile_sum (c : Dev nD) (t : Fin cfg1.N) (p q : Fin 256) (r : Fin 4096)
    (hr : r.val = 256 * (t.val / 16) + p.val) (h : 256 * (t.val % 16 + 1) ≤ 4096) :
    ∑ kk : Fin 256, bA V c t (ix2 p kk) * bK V c t (ix2 kk q)
      = ∑ k : Fin 256, terms V c r q ⟨256 * (t.val % 16) + k.val, lt_of_lt_of_le (by rw [Nat.mul_succ]; exact Nat.add_lt_add_left k.isLt _) h⟩ :=
  Finset.sum_congr rfl fun kk _ => by
    rw [blk0_apply V c t p kk r ⟨256 * (t.val % 16) + kk.val, lt_of_lt_of_le (by rw [Nat.mul_succ]; exact Nat.add_lt_add_left kk.isLt _) h⟩ hr rfl,
      blk1_apply V c t kk q ⟨256 * (t.val % 16) + kk.val, lt_of_lt_of_le (by rw [Nat.mul_succ]; exact Nat.add_lt_add_left kk.isLt _) h⟩ rfl]

/-- After the point (i, k) the accumulator holds, at (p, q), the partial sum over the first 256·(k+1) terms of the
    entry (256·i + p, q) of the second product. -/
theorem acc_eq (c : Dev nD) : ∀ (n : ℕ) (hn : n < cfg1.N) (p q : Fin 256) (r : Fin 4096), r.val = 256 * (n / 16) + p.val →
    (outsAt1 V c n hn).2 (ix2 p q) = ∑ m ∈ Finset.range (256 * (n % 16 + 1)), Cert.SumLaws.padded (terms V c r q) m := by
  intro n
  induction n using Nat.strong_induction_on with
  | _ n ih =>
    intro hn p q r hr
    have hN : n < 256 := lt_of_lt_of_eq hn (show cfg1.N = 256 from N_1)
    have hle : 256 * (n % 16 + 1) ≤ 4096 := by omega
    rw [Cert.SumLaws.sum_range_tile_succ (terms V c r q) 256 (n % 16) hle]
    by_cases h0 : n % 16 = 0
    · rw [outsAt1_A V c ⟨n, hn⟩ h0]
      dsimp only
      unfold ptA
      rw [soutA_eq, pay2_apply, pay1_apply, Cert.SumLaws.sum_range_tile_of_eq_zero (terms V c r q) 256 (n % 16) h0]
      exact congrArg (0 + ·) (tile_sum V c ⟨n, hn⟩ p q r hr hle)
    · have hpos : n - 1 < n := by omega
      have hprev := ih (n - 1) hpos (Nat.lt_of_le_of_lt (Nat.sub_le _ _) hn) p q r (by rw [hr]; omega)
      rw [show (n - 1) % 16 + 1 = n % 16 from by omega] at hprev
      by_cases h1 : n % 16 = 15
      · rw [outsAt1_C V c ⟨n, hn⟩ h1]
        dsimp only
        unfold ptCs
        rw [soutC_eq, pay2_apply, hprev]
        exact congrArg (_ + ·) (tile_sum V c ⟨n, hn⟩ p q r hr hle)
      · rw [outsAt1_B V c ⟨n, hn⟩ h0 h1]
        dsimp only
        unfold ptB
        rw [soutB_eq, pay2_apply, hprev]
        exact congrArg (_ + ·) (tile_sum V c ⟨n, hn⟩ p q r hr hle)

/-! ## The output array when the region ends -/

/-- What the output array ends holding. -/
abbrev result1 (c : Dev nD) : Cert.Feat.So.Idx → EReal :=
  Cert.Feat.panels (aX0 V c) (aX1 V c) (Cert.Feat.hop (aA V c) (aX1 V c))

/-- A point with k = 15 writes back row block i of the result. -/
theorem flushed_eq1 (c : Dev nD) (t : Fin cfg1.N) (hf : (cfg1.win 4).flush t = true) :
    (dat1 V c).flushed 4 t = ((cfg1.win 4).blk t).view.read (Elt Ideal) (result1 V c) := by
  have h15 : t.val % 16 = 15 := (flush1_4 t).mp hf
  have hN : t.val < 256 := lt_of_lt_of_eq t.isLt (show cfg1.N = 256 from N_1)
  show (cfg1.win 4).cut (grid1.coords t) ((dat1 V c).after 4 t) = _
  rw [after1_4, outsAt1_C V c t h15]
  dsimp only
  unfold ptC4
  rw [outC_4_eq, pay3_eq]
  funext j
  rw [View.read_apply]
  have hj0 : (j 0).val < 256 := (j 0).isLt
  have hj1 : (j 1).val < 768 := (j 1).isLt
  have hrlt : 256 * (t.val / 16) + (j 0).val < 4096 := by omega
  have he0 : ((((cfg1.win 4).blk t).view.emb j) 0 : Fin 4096).val = 256 * (t.val / 16) + (j 0).val := by
    show win1_4.index t 0 * 256 + 1 * (j 0).val = _; rw [(idx1_4 t).1]; omega
  have he1 : ((((cfg1.win 4).blk t).view.emb j) 1 : Fin 768).val = (j 1).val := by
    show win1_4.index t 1 * 768 + 1 * (j 1).val = _; rw [(idx1_4 t).2]; omega
  show blockPanels (F := Ideal) _ _ _ j = result1 V c (((cfg1.win 4).blk t).view.emb j)
  by_cases ha : (j 1).val < 256
  · rw [blockPanels_left _ _ _ j ⟨(j 0).val, hj0⟩ ⟨(j 1).val, ha⟩ rfl rfl]
    exact (blk2_apply V c t ⟨(j 0).val, hj0⟩ ⟨(j 1).val, ha⟩ ⟨256 * (t.val / 16) + (j 0).val, hrlt⟩ rfl).trans
      (Cert.Feat.panels_left (aX0 V c) (aX1 V c) (Cert.Feat.hop (aA V c) (aX1 V c)) _ ⟨256 * (t.val / 16) + (j 0).val, hrlt⟩ ⟨(j 1).val, ha⟩ he0 he1).symm
  · by_cases hb : (j 1).val < 512
    · rw [blockPanels_mid _ _ _ j ⟨(j 0).val, hj0⟩ ⟨(j 1).val - 256, by omega⟩ rfl (by show (j 1).val = 256 + ((j 1).val - 256); omega)]
      exact (blk3_apply V c t ⟨(j 0).val, hj0⟩ ⟨(j 1).val - 256, by omega⟩ ⟨256 * (t.val / 16) + (j 0).val, hrlt⟩ rfl).trans
        (Cert.Feat.panels_mid (aX0 V c) (aX1 V c) (Cert.Feat.hop (aA V c) (aX1 V c)) _ ⟨256 * (t.val / 16) + (j 0).val, hrlt⟩ ⟨(j 1).val - 256, by omega⟩ he0
          (by rw [he1]; show (j 1).val = 256 + ((j 1).val - 256); omega)).symm
    · rw [blockPanels_right _ _ _ j ⟨(j 0).val, hj0⟩ ⟨(j 1).val - 512, by omega⟩ rfl (by show (j 1).val = 512 + ((j 1).val - 512); omega)]
      refine Eq.trans ?_ (Cert.Feat.panels_right (aX0 V c) (aX1 V c) (Cert.Feat.hop (aA V c) (aX1 V c)) _ ⟨256 * (t.val / 16) + (j 0).val, hrlt⟩ ⟨(j 1).val - 512, by omega⟩ he0
        (by rw [he1]; show (j 1).val = 512 + ((j 1).val - 512); omega)).symm
      have hacc := acc_eq V c t.val t.isLt ⟨(j 0).val, hj0⟩ ⟨(j 1).val - 512, by omega⟩ ⟨256 * (t.val / 16) + (j 0).val, hrlt⟩ rfl
      rw [outsAt1_C V c t h15] at hacc
      dsimp only at hacc
      unfold ptCs at hacc
      rw [soutC_eq] at hacc
      rw [Cert.Feat.hop_eq_range]
      refine hacc.trans ?_
      rw [show 256 * (t.val % 16 + 1) = 4096 from by omega]

/-- When the region ends the output array holds the feature matrix, the first product and the product of the
    square matrix with the first product, side by side. -/
theorem final1 (c : Dev nD) :
    (dat1 (F := Ideal) V c).arrAt 4 cfg1.N = Cert.Feat.panels (V c main_arg0) (V c main_call0_v0) (Cert.Feat.hop (V c main_arg1) (V c main_call0_v0)) :=
  (dat1 V c).arrAt_eq_of_cover 4 (result1 V c) (flushed_eq1 V c) (fun i => cover1 i)

end Value

end Cert.ReferenceIdeal.Hand1

end
-- ==== Proof.RefValue.lean ====
import proofs.«148489_g2000000462589658_pallasbulk_581_2_alg».proof.Proof.RefRegions
import proofs.«148489_g2000000462589658_pallasbulk_581_2_alg».proof.Proof.RefFrame0
import proofs.«148489_g2000000462589658_pallasbulk_581_2_alg».proof.Proof.RefFrame1
import proofs.«148489_g2000000462589658_pallasbulk_581_2_alg».proof.Proof.RefValue0
import proofs.«148489_g2000000462589658_pallasbulk_581_2_alg».proof.Proof.RefValue1
import proofs.«148489_g2000000462589658_pallasbulk_581_2_alg».proof.Proof.Feat

/-!
# The reference program's result

The two regions' frame data instantiate the run of the program as two regions; read at the extended reals, the first
region leaves `a · x` in the intermediate array, and the second, which finds the arguments as launched and that product
in the intermediate array, leaves the three panels `x | a · x | a · (a · x)` in the result.
-/

noncomputable section

namespace Cert.ReferenceIdeal.Regions

open Cert.ReferenceIdeal Cert.ReferenceIdeal.Gen
open Idealize.ShloMosaic Idealize.ShloMosaic.TcCoe Idealize.SL.Sem
open Idealize.ShloMosaic.Pipeline (Dat)

variable {F : FTy → Type} [FloatOps F]

/-- The first region's frame data meet what the run asks of them. -/
theorem data0 : Data0 (F := F) (fun V c => Cert.ReferenceIdeal.Hand.dat0 V c) where
  hA := Cert.ReferenceIdeal.Hand.A_eq0
  hq := Cert.ReferenceIdeal.Hand.q_eq0
  howed := Cert.ReferenceIdeal.Hand.owed_eq0
  hrec := fun _ _ _ => rfl
  hbody := Cert.ReferenceIdeal.Hand.body_obligation0
  hin := Cert.ReferenceIdeal.Hand.hin0
  hout := Cert.ReferenceIdeal.Hand.hout0

/-- So do the second region's, its two readers of the intermediate array at half the share each. -/
theorem data1 : Data1 (F := F) (fun V c => Cert.ReferenceIdeal.Hand1.dat1 V c) where
  hA := Cert.ReferenceIdeal.Hand1.A_eq1
  hq0 := Cert.ReferenceIdeal.Hand1.q1_0
  hq1 := Cert.ReferenceIdeal.Hand1.q1_1
  hq2 := Cert.ReferenceIdeal.Hand1.q1_2
  hq3 := Cert.ReferenceIdeal.Hand1.q1_3
  howed := fun _ _ _ => rfl
  hrec := fun _ _ _ => rfl
  hbody := Cert.ReferenceIdeal.Hand1.body_obligation1
  hin := Cert.ReferenceIdeal.Hand1.hin1
  hout := Cert.ReferenceIdeal.Hand1.hout1

variable (m : (ℓ : Loc nD τ sig) → Buf (Elt Ideal) ℓ) (ρ : Dev nD → PrngReg)

/-- What the program leaves in the result array: the three panels of the arguments' two propagation steps. -/
theorem result_eq (c : Dev nD) :
    W2 (fun V c => Cert.ReferenceIdeal.Hand.dat0 (F := Ideal) V c) (fun V c => Cert.ReferenceIdeal.Hand1.dat1 (F := Ideal) V c) m ρ c (Proc.devRef .tc main_v0)
      = Cert.Feat.feat (m ((c : Thread nD τ).loc main_arg0)) (m ((c : Thread nD τ).loc main_arg1)) := by
  rw [W2_out, Cert.ReferenceIdeal.Hand1.final1, V1_arg0, V1_arg1, V1_mid, Cert.ReferenceIdeal.Hand.final0]
  rfl

/-- THE RUN, read: the result array at `feat` of the arguments, the arguments as launched. -/
theorem run_feat : θ_run (defs (F := Ideal)) (onTc (τ := τ) (main (F := Ideal))) ⟨m, fun _ => 0, ρ⟩ (fun r => ∀ c : Dev nD,
      r.2.mem ((c.tc : Thread nD τ).loc main_v0) = Cert.Feat.feat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run m ρ data0 data1)

end Cert.ReferenceIdeal.Regions

end
-- ==== Proof.lean ====
/- The proof of `Cert.Claim`: a kernel computing `x | A·x | A·(A·x)` by two pipelined calls over row slabs of 512 rows,
   each slab's product taken over the whole shared axis at once, against a reference computing the same by two pipelined
   calls over 256 × 256 tiles that accumulate each product over the shared axis tile by tile in a scratch buffer.
   At the ideal values both programs leave the same array, `Cert.Feat.feat x A`: a sum over 4096 terms taken at once or
   as sixteen partial sums of 256 terms is one sum, addition of extended reals being associative and commutative, so the
   inputs' finiteness is not used.
   The kernel's value is read off its frame run (Proof/KerRun.lean, Proof/KerValue*.lean); the reference, whose second
   call reads the intermediate array through two windows, is run as two regions with frame data of its own
   (Proof/RefRuns*.lean, Proof/RefFrame*.lean, Proof/RefRegions.lean) and read in Proof/RefValue*.lean. -/
import proofs.«148489_g2000000462589658_pallasbulk_581_2_alg».proof.Defs
import proofs.«148489_g2000000462589658_pallasbulk_581_2_alg».proof.Proof.Gen.Kernel
import proofs.«148489_g2000000462589658_pallasbulk_581_2_alg».proof.Proof.Gen.Kernel.Frame
import proofs.«148489_g2000000462589658_pallasbulk_581_2_alg».proof.Proof.Gen.KernelIdeal
import proofs.«148489_g2000000462589658_pallasbulk_581_2_alg».proof.Proof.Gen.KernelIdeal.Frame
import proofs.«148489_g2000000462589658_pallasbulk_581_2_alg».proof.Proof.Gen.ReferenceIdeal
import proofs.«148489_g2000000462589658_pallasbulk_581_2_alg».proof.Proof.Gen.Pre_finite_inputs
import proofs.«148489_g2000000462589658_pallasbulk_581_2_alg».proof.Proof.KerValue
import proofs.«148489_g2000000462589658_pallasbulk_581_2_alg».proof.Proof.RefValue
import Idealize.ShloMosaic.Adequacy
import Idealize.ShloMosaic.Init

noncomputable section

namespace Cert.Proof

open Idealize.ShloMosaic Idealize.SL.Sem

/-- The kernel runs and keeps its arguments, as printed and idealized: the generated frames. -/
theorem frame_k : Cert.frame_Kernel := fun m ρ _ => Cert.Kernel.Gen.frame m ρ
theorem frame_ki : Cert.frame_KernelIdeal := fun m ρ _ => Cert.KernelIdeal.Gen.frame m ρ
/-- The reference runs and keeps its arguments: its run as two regions, the result dropped. -/
theorem frame_ri : Cert.frame_ReferenceIdeal := fun m ρ _ =>
  (θ_run Cert.ReferenceIdeal.defs _ _).mono (fun _ h c => (h c).2) (Cert.ReferenceIdeal.Regions.run_feat m ρ)

/-- The ideal pass rewrote nothing. -/
theorem preserves : Cert.preserves_Kernel_KernelIdeal := trivial

/-- Both idealized programs, from memories agreeing on the arguments, end with the result array at `feat x A`. -/
theorem algebraic : Cert.algebraic_KernelIdeal_ReferenceIdeal := by
  intro m ρ m' ρ' _ hagree
  refine ⟨fun c => Cert.Feat.feat (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Regions.run_feat m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
